-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x320000 : Shape := ⟨2, ![2, 320000]⟩
abbrev S100000 : Shape := ⟨1, ![100000]⟩
abbrev S3x256x256 : Shape := ⟨3, ![3, 256, 256]⟩
abbrev S3x256 : Shape := ⟨2, ![3, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg6 : FVec F S3x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  main_v23

def fn {F : FTy → Type} [FloatOps F] (main_arg0 : FVec F S100000x256 .f32) (main_arg1 : IVec S2x320000 32) (main_arg2 : IVec S100000 32) (main_arg3 : FVec F S3x256x256 .f32) (main_arg4 : FVec F S3x256 .f32) (main_arg5 : FVec F S3x256x256 .f32) (main_arg6 : FVec F S3x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3x256x256 .f32 := Host.absf main_arg3
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg4
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256x256 .f32 := Host.absf main_arg5
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg6 main_v13 main_v16
-- ==== Kernel.lean ====
abbrev S100000x256 : Shape := ⟨2, ![100000, 256]⟩
abbrev S2x320000 : Shape := ⟨2, ![2, 320000]⟩
abbrev S100000 : Shape := ⟨1, ![100000]⟩
abbrev S3x256x256 : Shape := ⟨3, ![3, 256, 256]⟩
abbrev S3x256 : Shape := ⟨2, ![3, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩
abbrev S2000x256 : Shape := ⟨2, ![2000, 256]⟩
abbrev S1024x256 : Shape := ⟨2, ![1024, 256]⟩
abbrev S100000x1 : Shape := ⟨2, ![100000, 1]⟩
abbrev S1024 : Shape := ⟨1, ![1024]⟩
abbrev S1024x1 : Shape := ⟨2, ![1024, 1]⟩

abbrev nBuf : Space → Nat
  | .hbm => 99
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S2x320000, .i32⟩
  | .hbm, ⟨2, _⟩ => ⟨S100000, .i32⟩
  | .hbm, ⟨3, _⟩ => ⟨S3x256x256, .f32⟩
  | .hbm, ⟨4, _⟩ => ⟨S3x256, .f32⟩
  | .hbm, ⟨5, _⟩ => ⟨S3x256x256, .f32⟩
  | .hbm, ⟨6, _⟩ => ⟨S3x256, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S_, .i32⟩
  | .hbm, ⟨12, _⟩ => ⟨S320000, .i32⟩
  | .hbm, ⟨13, _⟩ => ⟨S320000, .i1⟩
  | .hbm, ⟨14, _⟩ => ⟨S_, .i32⟩
  | .hbm, ⟨15, _⟩ => ⟨S320000, .i32⟩
  | .hbm, ⟨16, _⟩ => ⟨S320000, .i32⟩
  | .hbm, ⟨17, _⟩ => ⟨S320000, .i32⟩
  | .hbm, ⟨18, _⟩ => ⟨S320000x1, .i32⟩
  | .hbm, ⟨19, _⟩ => ⟨S320000x256, .f32⟩
  | .hbm, ⟨20, _⟩ => ⟨S_, .f32⟩
  | .hbm, ⟨21, _⟩ => ⟨S100000x256, .f32⟩
  | .hbm, ⟨22, _⟩ => ⟨S320000x1, .i32⟩
  | .hbm, ⟨23, _⟩ => ⟨S100000x256, .f32⟩
  | .hbm, ⟨24, _⟩ => ⟨S1x256, .f32⟩
  | .hbm, ⟨25, _⟩ => ⟨S256, .f32⟩
  | .hbm, ⟨26, _⟩ => ⟨S1x256, .f32⟩
  | .hbm, ⟨27, _⟩ => ⟨S1x256, .f32⟩
  | .hbm, ⟨28, _⟩ => ⟨S256, .f32⟩
  | .hbm, ⟨29, _⟩ => ⟨S1x256, .f32⟩
  | .hbm, ⟨30, _⟩ => ⟨S1x256x256, .f32⟩
  | .hbm, ⟨31, _⟩ => ⟨S256x256, .f32⟩
  | .hbm, ⟨32, _⟩ => ⟨S1x256x256, .f32⟩
  | .hbm, ⟨33, _⟩ => ⟨S256x256, .f32⟩
  | .hbm, ⟨34, _⟩ => ⟨S100000x256, .f32⟩
  | .hbm, ⟨35, _⟩ => ⟨S_, .i32⟩
  | .hbm, ⟨36, _⟩ => ⟨S320000, .i32⟩
  | .hbm, ⟨37, _⟩ => ⟨S320000, .i1⟩
  | .hbm, ⟨38, _⟩ => ⟨S_, .i32⟩
  | .hbm, ⟨39, _⟩ => ⟨S320000, .i32⟩
  | .hbm, ⟨40, _⟩ => ⟨S320000, .i32⟩
  | .hbm, ⟨41, _⟩ => ⟨S320000, .i32⟩
  | .hbm, ⟨42, _⟩ => ⟨S320000x1, .i32⟩
  | .hbm, ⟨43, _⟩ => ⟨S320000x256, .f32⟩
  | .hbm, ⟨44, _⟩ => ⟨S_, .f32⟩
  | .hbm, ⟨45, _⟩ => ⟨S100000x256, .f32⟩
  | .hbm, ⟨46, _⟩ => ⟨S320000x1, .i32⟩
  | .hbm, ⟨47, _⟩ => ⟨S100000x256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S1x256, .f32⟩
  | .hbm, ⟨52, _⟩ => ⟨S256, .f32⟩
  | .hbm, ⟨53, _⟩ => ⟨S1x256, .f32⟩
  | .hbm, ⟨54, _⟩ => ⟨S1x256x256, .f32⟩
  | .hbm, ⟨55, _⟩ => ⟨S256x256, .f32⟩
  | .hbm, ⟨56, _⟩ => ⟨S1x256x256, .f32⟩
  | .hbm, ⟨57, _⟩ => ⟨S256x256, .f32⟩
  | .hbm, ⟨58, _⟩ => ⟨S100000x256, .f32⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S320000x256, .f32⟩
  | .hbm, ⟨68, _⟩ => ⟨S_, .f32⟩
  | .hbm, ⟨69, _⟩ => ⟨S100000x256, .f32⟩
  | .hbm, ⟨70, _⟩ => ⟨S320000x1, .i32⟩
  | .hbm, ⟨71, _⟩ => ⟨S100000x256, .f32⟩
  | .hbm, ⟨72, _⟩ => ⟨S1x256, .f32⟩
  | .hbm, ⟨73, _⟩ => ⟨S256, .f32⟩
  | .hbm, ⟨74, _⟩ => ⟨S1x256, .f32⟩
  | .hbm, ⟨75, _⟩ => ⟨S1x256, .f32⟩
  | .hbm, ⟨76, _⟩ => ⟨S256, .f32⟩
  | .hbm, ⟨77, _⟩ => ⟨S1x256, .f32⟩
  | .hbm, ⟨78, _⟩ => ⟨S1x256x256, .f32⟩
  | .hbm, ⟨79, _⟩ => ⟨S256x256, .f32⟩
  | .hbm, ⟨80, _⟩ => ⟨S1x256x256, .f32⟩
  | .hbm, ⟨81, _⟩ => ⟨S256x256, .f32⟩
  | .hbm, ⟨82, _⟩ => ⟨S100000x256, .f32⟩
  | .hbm, ⟨83, _⟩ => ⟨S_, .f32⟩
  | .hbm, ⟨84, _⟩ => ⟨S1024x256, .f32⟩
  | .hbm, ⟨85, _⟩ => ⟨S100000x1, .i32⟩
  | .hbm, ⟨86, _⟩ => ⟨S1024x256, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S1024, .f32⟩
  | .hbm, ⟨91, _⟩ => ⟨S100000x1, .i32⟩
  | .hbm, ⟨92, _⟩ => ⟨S1024, .f32⟩
  | .hbm, ⟨93, _⟩ => ⟨S_, .f32⟩
  | .hbm, ⟨94, _⟩ => ⟨S1024, .f32⟩
  | .hbm, ⟨95, _⟩ => ⟨S1024, .f32⟩
  | .hbm, ⟨96, _⟩ => ⟨S1024x1, .f32⟩
  | .hbm, ⟨97, _⟩ => ⟨S1024x256, .f32⟩
  | .hbm, ⟨98, _⟩ => ⟨S1024x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_10 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S100000x256 : S_.BroadcastsInDim S100000x256 (![] : Fin 0 → Fin S100000x256.rank)
  slices_S3x256_S1x256_0_0 : S3x256.Slices ![0, 0] S1x256
  shapeCasts_S1x256_S256 : S1x256.ShapeCasts S256
  shapeCasts_S256_S1x256 : S256.ShapeCasts S1x256
  slices_S3x256x256_S1x256x256_0_0_0 : S3x256x256.Slices ![0, 0, 0] S1x256x256
  shapeCasts_S1x256x256_S256x256 : S1x256x256.ShapeCasts S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S3x256_S1x256_1_0 : S3x256.Slices ![1, 0] S1x256
  slices_S3x256x256_S1x256x256_1_0_0 : S3x256x256.Slices ![1, 0, 0] S1x256x256
  slices_S3x256_S1x256_2_0 : S3x256.Slices ![2, 0] S1x256
  slices_S3x256x256_S1x256x256_2_0_0 : S3x256x256.Slices ![2, 0, 0] S1x256x256
  bcast_S_S1024x256 : S_.BroadcastsInDim S1024x256 (![] : Fin 0 → Fin S1024x256.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S2000x256_S256x256_S2000x256_1_0_0_1_n_n_wf : DotDims.WF S2000x256 S256x256 S2000x256 [1] [0] [0] [1] [] []
  scatter_S1024x256_S100000x1_S100000x256_1_0_0_1_wf : ScatterDims.WF S1024x256 S100000x1 S100000x256 [1] [0] [0] 1
  scatter_S1024_S100000x1_S100000_n_0_0_1_wf : ScatterDims.WF S1024 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S100000x256.size a
  hwx1_6 : ∀ i : grid1.Coords, EltTy.bits .f32 = 32 ∨ (Rect.block (s := S100000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S100000x256.size a
  hwx2_6 : ∀ i : grid2.Coords, EltTy.bits .f32 = 32 ∨ (Rect.block (s := S100000x256) S2000x256.size (cc2_transform_6 i) (hinb2_6 i)).WholeWords (EltTy.packing .f32)

variable [Facts₀]

def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S1024x256_S100000x1_S100000x256_1_0_0_1 : ScatterDims S1024x256 S100000x1 S100000x256 where
  updateWindowDims := [1]
  insertedWindowDims := [0]
  scatterDimsToOperandDims := [0]
  indexVectorDim := 1
  wf := scatter_S1024x256_S100000x1_S100000x256_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x320000 : Shape := ⟨2, ![2, 320000]⟩
abbrev S100000 : Shape := ⟨1, ![100000]⟩
abbrev S3x256x256 : Shape := ⟨3, ![3, 256, 256]⟩
abbrev S3x256 : Shape := ⟨2, ![3, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1024x256 : Shape := ⟨2, ![1024, 256]⟩
abbrev S100000x1 : Shape := ⟨2, ![100000, 1]⟩
abbrev S1024 : Shape := ⟨1, ![1024]⟩
abbrev S1024x1 : Shape := ⟨2, ![1024, 1]⟩

abbrev nBuf : Space → Nat
  | .hbm => 132
  | .vmem => 0
  | .smem => 0
  | _ => 0

abbrev hbmTy0_0 (i : Nat) : BufTy := match i % 128 with
  | 0 => ⟨S100000x256, .f32⟩
  | 1 => ⟨S2x320000, .i32⟩
  | 2 => ⟨S100000, .i32⟩
  | 3 => ⟨S3x256x256, .f32⟩
  | 4 => ⟨S3x256, .f32⟩
  | 5 => ⟨S3x256x256, .f32⟩
  | 6 => ⟨S3x256, .f32⟩
  | 7 => ⟨S1x320000, .i32⟩
  | 8 => ⟨S320000, .i32⟩
  | 9 => ⟨S1x320000, .i32⟩
  | 10 => ⟨S320000, .i32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S320000x256, .f32⟩
  | 20 => ⟨S_, .f32⟩
  | 21 => ⟨S100000x256, .f32⟩
  | 22 => ⟨S320000x1, .i32⟩
  | 23 => ⟨S100000x256, .f32⟩
  | 24 => ⟨S100000x256, .f32⟩
  | 25 => ⟨S1x256x256, .f32⟩
  | 26 => ⟨S256x256, .f32⟩
  | 27 => ⟨S100000x256, .f32⟩
  | 28 => ⟨S1x256, .f32⟩
  | 29 => ⟨S256, .f32⟩
  | 30 => ⟨S1x256, .f32⟩
  | 31 => ⟨S100000x256, .f32⟩
  | 32 => ⟨S100000x256, .f32⟩
  | 33 => ⟨S_, .f32⟩
  | 34 => ⟨S100000x256, .f32⟩
  | 35 => ⟨S100000x256, .f32⟩
  | 36 => ⟨S1x256x256, .f32⟩
  | 37 => ⟨S256x256, .f32⟩
  | 38 => ⟨S100000x256, .f32⟩
  | 39 => ⟨S1x256, .f32⟩
  | 40 => ⟨S256, .f32⟩
  | 41 => ⟨S1x256, .f32⟩
  | 42 => ⟨S100000x256, .f32⟩
  | 43 => ⟨S100000x256, .f32⟩
  | 44 => ⟨S_, .f32⟩
  | 45 => ⟨S100000x256, .f32⟩
  | 46 => ⟨S100000x256, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x256, .f32⟩
  | 56 => ⟨S_, .f32⟩
  | 57 => ⟨S100000x256, .f32⟩
  | 58 => ⟨S320000x1, .i32⟩
  | 59 => ⟨S100000x256, .f32⟩
  | 60 => ⟨S100000x256, .f32⟩
  | 61 => ⟨S1x256x256, .f32⟩
  | 62 => ⟨S256x256, .f32⟩
  | 63 => ⟨S100000x256, .f32⟩
  | 64 => ⟨S1x256, .f32⟩
  | 65 => ⟨S256, .f32⟩
  | 66 => ⟨S1x256, .f32⟩
  | 67 => ⟨S100000x256, .f32⟩
  | 68 => ⟨S100000x256, .f32⟩
  | 69 => ⟨S_, .f32⟩
  | 70 => ⟨S100000x256, .f32⟩
  | 71 => ⟨S100000x256, .f32⟩
  | 72 => ⟨S1x256x256, .f32⟩
  | 73 => ⟨S256x256, .f32⟩
  | 74 => ⟨S100000x256, .f32⟩
  | 75 => ⟨S1x256, .f32⟩
  | 76 => ⟨S256, .f32⟩
  | 77 => ⟨S1x256, .f32⟩
  | 78 => ⟨S100000x256, .f32⟩
  | 79 => ⟨S100000x256, .f32⟩
  | 80 => ⟨S_, .f32⟩
  | 81 => ⟨S100000x256, .f32⟩
  | 82 => ⟨S100000x256, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x256, .f32⟩
  | 92 => ⟨S_, .f32⟩
  | 93 => ⟨S100000x256, .f32⟩
  | 94 => ⟨S320000x1, .i32⟩
  | 95 => ⟨S100000x256, .f32⟩
  | 96 => ⟨S100000x256, .f32⟩
  | 97 => ⟨S1x256x256, .f32⟩
  | 98 => ⟨S256x256, .f32⟩
  | 99 => ⟨S100000x256, .f32⟩
  | 100 => ⟨S1x256, .f32⟩
  | 101 => ⟨S256, .f32⟩
  | 102 => ⟨S1x256, .f32⟩
  | 103 => ⟨S100000x256, .f32⟩
  | 104 => ⟨S100000x256, .f32⟩
  | 105 => ⟨S_, .f32⟩
  | 106 => ⟨S100000x256, .f32⟩
  | 107 => ⟨S100000x256, .f32⟩
  | 108 => ⟨S1x256x256, .f32⟩
  | 109 => ⟨S256x256, .f32⟩
  | 110 => ⟨S100000x256, .f32⟩
  | 111 => ⟨S1x256, .f32⟩
  | 112 => ⟨S256, .f32⟩
  | 113 => ⟨S1x256, .f32⟩
  | 114 => ⟨S100000x256, .f32⟩
  | 115 => ⟨S100000x256, .f32⟩
  | 116 => ⟨S_, .f32⟩
  | 117 => ⟨S1024x256, .f32⟩
  | 118 => ⟨S100000x1, .i32⟩
  | 119 => ⟨S1024x256, .f32⟩
  | 120 => ⟨S_, .f32⟩
  | 121 => ⟨S100000, .f32⟩
  | 122 => ⟨S_, .f32⟩
  | 123 => ⟨S1024, .f32⟩
  | 124 => ⟨S100000x1, .i32⟩
  | 125 => ⟨S1024, .f32⟩
  | 126 => ⟨S_, .f32⟩
  | 127 => ⟨S1024, .f32⟩
  | _ => ⟨S100000x256, .f32⟩

abbrev hbmTy0_1 (i : Nat) : BufTy := match i % 128 with
  | 0 => ⟨S1024, .f32⟩
  | 1 => ⟨S1024x1, .f32⟩
  | 2 => ⟨S1024x256, .f32⟩
  | 3 => ⟨S1024x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_c_8 : Ref sig .tc := ⟨.hbm, 83, rfl⟩
abbrev main_v66 : Ref sig .tc := ⟨.hbm, 84, rfl⟩
abbrev main_v67 : Ref sig .tc := ⟨.hbm, 85, rfl⟩
abbrev main_c_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_11 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_12 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_13 : Ref sig .tc := ⟨.hbm, 120, rfl⟩
abbrev main_v98 : Ref sig .tc := ⟨.hbm, 121, rfl⟩
abbrev main_cst_14 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_15 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S100000x256 : S_.BroadcastsInDim S100000x256 (![] : Fin 0 → Fin S100000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S1024x256 : S_.BroadcastsInDim S1024x256 (![] : Fin 0 → Fin S1024x256.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S100000x256_S256x256_S100000x256_1_0_0_1_n_n_wf : DotDims.WF S100000x256 S256x256 S100000x256 [1] [0] [0] [1] [] []
  scatter_S1024x256_S100000x1_S100000x256_1_0_0_1_wf : ScatterDims.WF S1024x256 S100000x1 S100000x256 [1] [0] [0] 1
  scatter_S1024_S100000x1_S100000_n_0_0_1_wf : ScatterDims.WF S1024 S100000x1 S100000 [] [0] [0] 1

variable [Facts₀]

def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S1024x256_S100000x1_S100000x256_1_0_0_1 : ScatterDims S1024x256 S100000x1 S100000x256 where
  updateWindowDims := [1]
  insertedWindowDims := [0]
  scatterDimsToOperandDims := [0]
  indexVectorDim := 1
  wf := scatter_S1024x256_S100000x1_S100000x256_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf

class Facts : Prop extends Facts₀ where

variable [Facts]
-- ==== Proof.AtReturn.lean ====
/-
  What the kernel program's result buffer holds when @main returns.

  @main is seven segments in a row: a stretch of host operations, a gridded kernel, and so on, three kernels in
  all. Every segment turns "each unscoped buffer of the core holds the contents W" into the same statement about
  the next contents: a host stretch applies its operations to W, a kernel replaces its seven arrays by what its
  write-backs leave and keeps every other buffer. Chaining the seven, the core's buffers at the return hold the
  last contents of that chain, and reading the final memory against it gives the result buffer (and the seven
  argument buffers, which no segment writes) by name. The value of those last contents, as a function of the
  arguments, is computed in the modules that import this one.
-/
import proofs.«171842_j83184926588949_1_alg».proof.Proof.Gen.KernelIdeal.Frame

set_option maxRecDepth 16384

noncomputable section

namespace Cert.KernelIdeal.AtReturn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result buffer at the last contents
    of the chain of segments and the seven arguments as launched. -/
theorem run : θ_run defs (onTc (τ := τ) (main (F := F))) ⟨m, fun _ => 0, ρ⟩ (fun r => ∀ c : Dev nD,
      r.2.mem ((c.tc : Thread nD τ).loc main_v78) = W7 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    -- @main is the run of its segments
    (fun c Q => by rw [main_run m ρ c])
    -- each kernel is entered once
    (by simp only [segs, Pipeline.Seg.pipes_host, Pipeline.Seg.pipes_region, Pipeline.Seg.pipes_nil]; decide)
    -- no core owes another anything at launch, and no ghost resource is needed beside the pipelines' own
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the first thread state: the buffers at the launch contents; the last: the buffers at the chain's last contents
    (T₀ := fun c => iprop(StableHlo.held (c : Thread nD τ) (Pipeline.ucRefs τ sig) (W0 m ρ c) ∗ R c)) (Tₙ := Tₙ m ρ)
    -- consecutive segments agree on the state between them by definition; the last one is regrouped
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    -- the launch deals every core its buffers at the launch memory, its generator register and an empty debt
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- reading the last thread state against a final memory: every unscoped buffer holds the last contents
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    -- the result buffer is unscoped, so it is read off directly; each argument is walked back to the launch memory
    (hQ := fun s h c =>
      ⟨h c _ (mem_uc main_v78 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.AtReturn

end
-- ==== Proof.Perceptron.lean ====
/-
  One node's update in a graph-convolution layer, as a function of that node alone.

  A layer sends a node's feature row `h` (256 numbers) and the row `a` of its neighbours' summed features to
  `(relu ((h + a) · W₁ + b₁)) · W₂ + b₂`: every output entry `q` is a sum over the 256 hidden units `k` of the
  hidden activation at `k` times `W₂ k q`, and each hidden activation is the positive part of a sum over the 256
  input features `l` of `(h l + a l) · W₁ l k`, shifted by `b₁ k`. Nothing in it looks at another node's row, which is
  why a tiling of the nodes into blocks of rows computes the same array as one product over all the rows.

  All arithmetic is on the extended reals: the sums are finite sums in a commutative monoid, so their order and
  grouping do not matter, and no distributive law is used anywhere (none would be available at the infinities).
-/
import Idealize.ShloMosaic.PureOps.Ideal
import Idealize.ShloMosaic.Lib.ValueIdx

noncomputable section

namespace Cert.Perceptron

open Idealize.ShloMosaic Idealize.ShloMosaic.ValueIdx
open scoped BigOperators

/-- A square weight matrix: entry `(l, k)` multiplies input feature `l` into unit `k`. -/
abbrev Weights : Shape := ⟨2, ![256, 256]⟩

/-- Hidden unit `k`: the positive part of the input row `z` against column `k` of `W`, shifted by `b k`. -/
def hidden (z : Fin 256 → EReal) (W : Weights.Idx → EReal) (b : Fin 256 → EReal) (k : Fin 256) : EReal :=
  max ((∑ l : Fin 256, z l * W (ix2 l k)) + b k) 0

/-- Output entry `q` of the second, affine map: the row `u` against column `q` of `W`, shifted by `b q`. -/
def affine (u : Fin 256 → EReal) (W : Weights.Idx → EReal) (b : Fin 256 → EReal) (q : Fin 256) : EReal :=
  (∑ k : Fin 256, u k * W (ix2 k q)) + b q

/-- A node's new feature `q` from its own row `h` and its neighbours' summed row `a`, before any final
    positive part: the affine map of the hidden layer of `h + a`. -/
def update (h a : Fin 256 → EReal) (W₁ : Weights.Idx → EReal) (b₁ : Fin 256 → EReal)
    (W₂ : Weights.Idx → EReal) (b₂ : Fin 256 → EReal) (q : Fin 256) : EReal :=
  affine (hidden (fun l => h l + a l) W₁ b₁) W₂ b₂ q

end Cert.Perceptron

end
-- ==== Proof.Nodes.lean ====
/-
  A layer's array of node updates, as one function of the six arrays a layer reads.

  Entry `(r, q)` is node `r`'s update at feature `q`: the perceptron of row `r` of the node features and row `r` of
  the neighbour sums, against the layer's two weight matrices and two bias rows. It reads no other row, which is
  what lets a tiling of the nodes into blocks of 2000 rows produce it block by block.
-/
import proofs.«171842_j83184926588949_1_alg».proof.KernelIdeal
import proofs.«171842_j83184926588949_1_alg».proof.Proof.Perceptron
import Idealize.ShloMosaic.Lib.ValueIdx

noncomputable section

namespace Cert.KernelIdeal.Nodes
open Idealize.ShloMosaic Idealize.ShloMosaic.ValueIdx
open Cert.KernelIdeal

/-- The row of node `i`'s index, as a number below the node count. -/
abbrev node (i : S100000x256.Idx) : Fin 100000 := ⟨(i 0).val, (i 0).isLt⟩
/-- The feature of an index, as a number below the feature count. -/
abbrev feat (i : S100000x256.Idx) : Fin 256 := ⟨(i 1).val, (i 1).isLt⟩

/-- A layer's array of node updates without the final positive part: entry `(r, q)` is node `r`'s update at feature
    `q` from row `r` of the features `H` and row `r` of the neighbour sums `A`; the biases are 1×256 rows. -/
def plain (H A : S100000x256.Idx → EReal) (W₁ : S256x256.Idx → EReal) (b₁ : S1x256.Idx → EReal)
    (W₂ : S256x256.Idx → EReal) (b₂ : S1x256.Idx → EReal) : S100000x256.Idx → EReal := fun i =>
  Cert.Perceptron.update (fun l => H (ix2 (node i) l)) (fun l => A (ix2 (node i) l)) W₁ (fun k => b₁ (ix2 0 k))
    W₂ (fun k => b₂ (ix2 0 k)) (feat i)

/-- The same followed by the positive part (the first two layers). -/
def positive (H A : S100000x256.Idx → EReal) (W₁ : S256x256.Idx → EReal) (b₁ : S1x256.Idx → EReal)
    (W₂ : S256x256.Idx → EReal) (b₂ : S1x256.Idx → EReal) : S100000x256.Idx → EReal := fun i =>
  max (plain H A W₁ b₁ W₂ b₂ i) 0

end Cert.KernelIdeal.Nodes

end
-- ==== Proof.Payload.lean ====
/-
  The kernel body's stored value, read at one entry.

  Each of the three kernel bodies computes, for a block of 2000 node rows, `(relu ((h + a) · W₁ + b₁)) · W₂ + b₂`
  (followed by a positive part in the first two bodies). On the extended reals every change of float format is the
  identity and a product into the zero accumulator is a plain finite sum, so entry `(p, q)` of the stored value is
  the perceptron update of row `p` of `h` and row `p` of `a`, at output feature `q`: the sum over the hidden units
  `k : Fin 256` of (the positive part of the sum over the input features `l : Fin 256` of
  `(h p l + a p l) · W₁ l k`, plus `b₁ k`) times `W₂ k q`, plus `b₂ q`. No other row enters, and no algebraic law
  beyond `0 + x = x` is used.
-/
import proofs.«171842_j83184926588949_1_alg».proof.Proof.Gen.KernelIdeal.Skeleton
import proofs.«171842_j83184926588949_1_alg».proof.Proof.Perceptron
import Idealize.ShloMosaic.PureOps.Ideal.Laws
import Idealize.ShloMosaic.Lib.ValueIdx
import Idealize.ShloMosaic.Lib.Pipeline.Value
import Idealize.ShloMosaic.Lib.ValueLayout

noncomputable section
open Idealize.ShloMosaic Idealize.ShloMosaic.ValueIdx
open scoped BigOperators

namespace Cert.KernelIdeal.Payload
open Cert.KernelIdeal Cert.KernelIdeal.Gen

/-! The kernel's dot has one contracted axis: output entry `(i₀, i₁)` and contraction coordinate `c` read the left
operand at `(i₀, c)` and the right operand at `(c, i₁)`. -/

theorem lhs_0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c
theorem rhs_0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c
theorem rhs_1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A product into the zero accumulator, read at `(p, q)`: the accumulator contributes `0`, and the sum over the one
    contracted axis is the sum over `k : Fin 256` of the left operand's row `p` against the right operand's column `q`. -/
theorem matmul_zero_apply {φ₁ φ₂ : FTy} (L : FVec Ideal S2000x256 φ₁) (R : FVec Ideal S256x256 φ₂) (p : Fin 2000) (q : Fin 256) :
    matmul dot_S2000x256_S256x256_S2000x256_1_0_0_1_n_n none L R (constant (F := Ideal) S2000x256 .f32 0x00000000#32) (ix2 p q)
      = ∑ k : Fin 256, L (ix2 p k) * R (ix2 k q) := by
  simp only [matmul]
  rw [Ideal.matmul_constant_zero_apply,
    ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q)
      ((ValueIdx.contrEquiv1 dot_S2000x256_S256x256_S2000x256_1_0_0_1_n_n 256 rfl rfl).symm k) = ix2 p k :=
    funext fun a => Fin.ext (by
      match a with
      | ⟨0, _⟩ => exact lhs_0 _ _
      | ⟨1, _⟩ => exact (lhs_1 _ _).trans hk)
  have er : dot_S2000x256_S256x256_S2000x256_1_0_0_1_n_n.rhsIdx (ix2 p q)
      ((ValueIdx.contrEquiv1 dot_S2000x256_S256x256_S2000x256_1_0_0_1_n_n 256 rfl rfl).symm k) = ix2 k q :=
    funext fun a => Fin.ext (by
      match a with
      | ⟨0, _⟩ => exact (rhs_0 _ _).trans hk
      | ⟨1, _⟩ => exact rhs_1 _ _)
  rw [el, er]

/-- One layer's arithmetic as the kernel body spells it, over the already summed input rows `z`: a product into the
    zero accumulator, the first bias row broadcast over the rows, the positive part, a second product and the second
    bias row. The changes of float format between the steps are the identity on the extended reals. -/
def layer (z : FVec Ideal S2000x256 .f32) (W₁ : FVec Ideal S256x256 .f32) (b₁ : FVec Ideal S1x256 .f32)
    (W₂ : FVec Ideal S256x256 .f32) (b₂ : FVec Ideal S1x256 .f32) : FVec Ideal S2000x256 .f32 :=
  addf (matmul dot_S2000x256_S256x256_S2000x256_1_0_0_1_n_n none
      (truncf .bf16 (maximumf (addf (matmul dot_S2000x256_S256x256_S2000x256_1_0_0_1_n_n none
            (truncf .bf16 z bitsLt_bf16_f32) (truncf .bf16 W₁ bitsLt_bf16_f32) (constant (F := Ideal) S2000x256 .f32 0x00000000#32))
          (broadcastTo S2000x256 b₁ broadcasts_S1x256_S2000x256))
        (broadcast S2000x256 (Scalar.ofBits (F := Ideal) .f32 0x00000000#32))) bitsLt_bf16_f32)
      (truncf .bf16 W₂ bitsLt_bf16_f32) (constant (F := Ideal) S2000x256 .f32 0x00000000#32))
    (broadcastTo S2000x256 b₂ broadcasts_S1x256_S2000x256)

/-- Entry `(p, q)` of a layer: the affine map, at `q`, of the hidden activations of row `p` of `z`. Each product reads
    only row `p` of its left operand, so the hidden activation at `(p, k)` is all the second product needs. -/
theorem layer_apply (z : FVec Ideal S2000x256 .f32) (W₁ : FVec Ideal S256x256 .f32) (b₁ : FVec Ideal S1x256 .f32)
    (W₂ : FVec Ideal S256x256 .f32) (b₂ : FVec Ideal S1x256 .f32) (p : Fin 2000) (q : Fin 256) :
    layer z W₁ b₁ W₂ b₂ (ix2 p q)
      = Cert.Perceptron.affine (Cert.Perceptron.hidden (fun l => z (ix2 p l)) W₁ (fun k => b₁ (ix2 0 k))) W₂ (fun k => b₂ (ix2 0 k)) q := by
  unfold layer
  rw [addf_apply, matmul_zero_apply, broadcastTo_1b_ab_apply]
  unfold Cert.Perceptron.affine
  refine congrArg (· + b₂ (ix2 0 q)) (Finset.sum_congr rfl fun k _ => ?_)
  refine congrArg (· * W₂ (ix2 k q)) ?_
  rw [truncf_apply, maximumf_apply, addf_apply, matmul_zero_apply, broadcastTo_1b_ab_apply, broadcast_apply]
  unfold Cert.Perceptron.hidden
  rw [show (Scalar.ofBits (F := Ideal) .f32 0x00000000#32) = (0 : EReal) from Ideal.ofBits_zero_f32]
  rfl

/-- The first body's stored value at `(p, q)`: the positive part of the update of row `p`. Its casts of an array to
    its own shape are the identity. -/
theorem pay0_apply (x0 x1 : Vec Ideal S2000x256 .f32) (x2 : Vec Ideal S256x256 .f32) (x3 : Vec Ideal S1x256 .f32)
    (x4 : Vec Ideal S256x256 .f32) (x5 : Vec Ideal S1x256 .f32) (p : Fin 2000) (q : Fin 256) :
    k0_pay1 (F := Ideal) x0 x1 x2 x3 x4 x5 (ix2 p q)
      = max (Cert.Perceptron.update (fun l => x0 (ix2 p l)) (fun l => x1 (ix2 p l)) x2 (fun k => x3 (ix2 0 k)) x4 (fun k => x5 (ix2 0 k)) q) 0 := by
  have e : k0_pay1 (F := Ideal) x0 x1 x2 x3 x4 x5
      = maximumf (layer (addf x0 x1) x2 x3 x4 x5) (broadcast S2000x256 (Scalar.ofBits (F := Ideal) .f32 0x00000000#32)) := by
    unfold k0_pay1
    simp only [shapeCast_self]
    rfl
  rw [e, maximumf_apply, layer_apply, broadcast_apply]
  rw [show (Scalar.ofBits (F := Ideal) .f32 0x00000000#32) = (0 : EReal) from Ideal.ofBits_zero_f32]
  rfl

/-- The second body's stored value at `(p, q)`: as the first, with one more identity cast on the first operand. -/
theorem pay1_apply (x0 x1 : Vec Ideal S2000x256 .f32) (x2 : Vec Ideal S256x256 .f32) (x3 : Vec Ideal S1x256 .f32)
    (x4 : Vec Ideal S256x256 .f32) (x5 : Vec Ideal S1x256 .f32) (p : Fin 2000) (q : Fin 256) :
    k1_pay1 (F := Ideal) x0 x1 x2 x3 x4 x5 (ix2 p q)
      = max (Cert.Perceptron.update (fun l => x0 (ix2 p l)) (fun l => x1 (ix2 p l)) x2 (fun k => x3 (ix2 0 k)) x4 (fun k => x5 (ix2 0 k)) q) 0 := by
  have e : k1_pay1 (F := Ideal) x0 x1 x2 x3 x4 x5
      = maximumf (layer (addf x0 x1) x2 x3 x4 x5) (broadcast S2000x256 (Scalar.ofBits (F := Ideal) .f32 0x00000000#32)) := by
    unfold k1_pay1
    simp only [shapeCast_self]
    rfl
  rw [e, maximumf_apply, layer_apply, broadcast_apply]
  rw [show (Scalar.ofBits (F := Ideal) .f32 0x00000000#32) = (0 : EReal) from Ideal.ofBits_zero_f32]
  rfl

/-- The last body's stored value at `(p, q)`: the update of row `p` itself, with no final positive part. -/
theorem pay2_apply (x0 x1 : Vec Ideal S2000x256 .f32) (x2 : Vec Ideal S256x256 .f32) (x3 : Vec Ideal S1x256 .f32)
    (x4 : Vec Ideal S256x256 .f32) (x5 : Vec Ideal S1x256 .f32) (p : Fin 2000) (q : Fin 256) :
    k2_pay1 (F := Ideal) x0 x1 x2 x3 x4 x5 (ix2 p q)
      = Cert.Perceptron.update (fun l => x0 (ix2 p l)) (fun l => x1 (ix2 p l)) x2 (fun k => x3 (ix2 0 k)) x4 (fun k => x5 (ix2 0 k)) q := by
  have e : k2_pay1 (F := Ideal) x0 x1 x2 x3 x4 x5 = layer (addf x0 x1) x2 x3 x4 x5 := by
    unfold k2_pay1
    simp only [shapeCast_self]
    rfl
  rw [e, layer_apply]
  rfl

/-- A length-256 vector recast as a 1×256 row reads, at `(0, k)`, the vector at `k`: both have row-major position `k`. -/
theorem row_apply (y : FVec Ideal S256 .f32) (k : Fin 256) :
    shapeCast S1x256 y shapeCasts_S256_S1x256 (ix2 0 k) = y (ix1 k) :=
  shapeCast_a_1a_apply y shapeCasts_S256_S1x256 0 k

end Cert.KernelIdeal.Payload
end
-- ==== Proof.Layer0.lean ====
/-
  What the first gridded kernel leaves in its output array, for any contents it may be entered with.

  The kernel runs over fifty grid points; point `t` fetches rows `2000 t … 2000 t + 1999` of the node features and
  of the neighbour sums, the two weight matrices and the two bias rows whole, and writes back 2000 rows of output.
  Entry `(p, q)` of what it writes is the perceptron update of row `2000 t + p` (the body's stored value read at an
  entry), so the block is rows `2000 t …` of ONE array of node updates; the fifty blocks tile the 100000 rows, so
  after the last point the output array is that array.
-/
import proofs.«171842_j83184926588949_1_alg».proof.Proof.Gen.KernelIdeal.Frame
import proofs.«171842_j83184926588949_1_alg».proof.Proof.Nodes
import proofs.«171842_j83184926588949_1_alg».proof.Proof.Payload
import Idealize.ShloMosaic.Lib.Pipeline.Value
import Idealize.ShloMosaic.Lib.ValueIdx

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Nodes

variable (V : (c : Dev nD) → (b : Ref sig .tc) → Buf (Elt Ideal) ((c : Thread nD τ).loc b))

theorem zeros : (![0, 0] : Fin 2 → Nat) = fun _ => 0 := funext fun a => by fin_cases a <;> rfl

/-- Where the blocks sit, decided once over the fifty grid points: the node-feature, aggregate and output
    windows are all at block row `t`, column block 0; the weight and bias windows stay at block (0, 0). -/
theorem places : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `p` of the block of node features a point fetches is the row, in the whole array, of the output entry
    the point computes from it (both are row `2000 t + p`). -/
theorem features_row (c : Dev nD) (t : Fin cfg0.N) (p : Fin 2000) (q : Fin 256) :
    (fun l : Fin 256 => iblk0 V c 0 t (ix2 p l))
      = fun l => V c main_arg0 (ix2 (node (((cfg0.win 6).blk t).view.emb (ix2 p q))) l) := by
  obtain ⟨e60, e61, e00, e01, -⟩ := places t
  funext l
  show V c main_arg0 (((cfg0.win 0).blk t).view.emb (ix2 p l)) = _
  refine congrArg (V c main_arg0) (funext fun a => Fin.ext ?_)
  match a with
  | ⟨0, _⟩ => show win0_0.index t (0 : Fin 2) * 2000 + 1 * p.val = win0_6.index t (0 : Fin 2) * 2000 + 1 * p.val; omega
  | ⟨1, _⟩ => show win0_0.index t (1 : Fin 2) * 256 + 1 * l.val = l.val; omega

/-- The same for the block of neighbour sums. -/
theorem sums_row (c : Dev nD) (t : Fin cfg0.N) (p : Fin 2000) (q : Fin 256) :
    (fun l : Fin 256 => iblk0 V c 1 t (ix2 p l))
      = fun l => V c main_v13 (ix2 (node (((cfg0.win 6).blk t).view.emb (ix2 p q))) l) := by
  obtain ⟨e60, e61, e00, e01, e10, e11, -⟩ := places t
  funext l
  show V c main_v13 (((cfg0.win 1).blk t).view.emb (ix2 p l)) = _
  refine congrArg (V c main_v13) (funext fun a => Fin.ext ?_)
  match a with
  | ⟨0, _⟩ => show win0_1.index t (0 : Fin 2) * 2000 + 1 * p.val = win0_6.index t (0 : Fin 2) * 2000 + 1 * p.val; omega
  | ⟨1, _⟩ => show win0_1.index t (1 : Fin 2) * 256 + 1 * l.val = l.val; omega

/-- The output entry's feature is the column inside the block. -/
theorem out_feature (t : Fin cfg0.N) (p : Fin 2000) (q : Fin 256) :
    feat (((cfg0.win 6).blk t).view.emb (ix2 p q)) = q := by
  obtain ⟨e60, e61, -⟩ := places t
  apply Fin.ext
  show win0_6.index t (1 : Fin 2) * 256 + 1 * q.val = q.val; omega

/-- Each weight matrix and bias row is fetched whole: its one block is the array. -/
theorem weights₁_whole (c : Dev nD) (t : Fin cfg0.N) : iblk0 V c 2 t = V c main_v21 := by
  obtain ⟨e60, e61, e00, e01, e10, e11, e20, e21, -⟩ := places t
  funext y
  show V c main_v21 (((cfg0.win 2).blk t).view.emb y) = _
  refine congrArg (V c main_v21) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega
theorem bias₁_whole (c : Dev nD) (t : Fin cfg0.N) : iblk0 V c 3 t = V c main_v16 := by
  obtain ⟨e60, e61, e00, e01, e10, e11, e20, e21, e30, e31, -⟩ := places t
  funext y
  show V c main_v16 (((cfg0.win 3).blk t).view.emb y) = _
  refine congrArg (V c main_v16) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega
theorem weights₂_whole (c : Dev nD) (t : Fin cfg0.N) : iblk0 V c 4 t = V c main_v23 := by
  obtain ⟨e60, e61, e00, e01, e10, e11, e20, e21, e30, e31, e40, e41, -⟩ := places t
  funext y
  show V c main_v23 (((cfg0.win 4).blk t).view.emb y) = _
  refine congrArg (V c main_v23) (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega
theorem bias₂_whole (c : Dev nD) (t : Fin cfg0.N) : iblk0 V c 5 t = V c main_v19 := by
  obtain ⟨e60, e61, e00, e01, e10, e11, e20, e21, e30, e31, e40, e41, e50, e51⟩ := places t
  funext y
  show V c main_v19 (((cfg0.win 5).blk t).view.emb y) = _
  refine congrArg (V c main_v19) (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- WHAT POINT `t` WRITES BACK: rows `2000 t … 2000 t + 1999` of the layer's array of node updates. -/
theorem written (c : Dev nD) (t : Fin cfg0.N) :
    (dat0 V c).flushed 6 t = ((cfg0.win 6).blk t).view.read (Elt Ideal)
      (positive (V c main_arg0) (V c main_v13) (V c main_v21) (V c main_v16) (V c main_v23) (V c main_v19)) := by
  show (cfg0.win 6).cut (grid0.coords t) ((dat0 V c).after 6 t) = _
  rw [after0_6]
  unfold out0_6
  rw [View.canon_unit_zero zeros]
  simp only [View.ld_unit_zero (S := S2000x256) zeros, View.ld_unit_zero (S := S256x256) zeros, View.ld_unit_zero (S := S1x256) zeros]
  funext j
  obtain ⟨p, q, rfl⟩ : ∃ (p : Fin 2000) (q : Fin 256), j = ix2 p q := ⟨j 0, j 1, eq_ix2 j⟩
  refine (Cert.KernelIdeal.Payload.pay0_apply (iblk0 V c 0 t) (iblk0 V c 1 t) (iblk0 V c 2 t) (iblk0 V c 3 t) (iblk0 V c 4 t) (iblk0 V c 5 t) p q).trans ?_
  rw [features_row V c t p q, sums_row V c t p q, weights₁_whole V c t, bias₁_whole V c t, weights₂_whole V c t, bias₂_whole V c t]
  show _ = positive (V c main_arg0) (V c main_v13) (V c main_v21) (V c main_v16) (V c main_v23) (V c main_v19) (((cfg0.win 6).blk t).view.emb (ix2 p q))
  unfold positive plain
  rw [out_feature t p q]

/-- An index of the array is in point `t`'s block iff each coordinate is in the block's range on its axis. -/
theorem in_block (t : Fin cfg0.N) (i : S100000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v24).slice (win0_6.rect t)).set ↔ _
  rw [View.set_slice_whole, Rect.mem_set_unit]
  exact Iff.rfl

/-- Every node's row lies in the block of the point `r / 2000`, and every point writes back: the fifty blocks tile
    the array. -/
theorem tiled (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  have hN : cfg0.N = 50 := N_0
  let t : Fin cfg0.N := ⟨(i 0).val / 2000, by rw [hN]; omega⟩
  obtain ⟨e60, e61, -⟩ := places t
  have e60' : win0_6.index t (0 : Fin 2) = (i 0).val / 2000 := e60
  refine ⟨t, flush0_6 t, ?_⟩
  rw [in_block]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- THE ARRAY the region leaves: every node's update, from the six arrays the region finds. -/
theorem array (c : Dev nD) :
    (dat0 V c).arrAt 6 cfg0.N = positive (V c main_arg0) (V c main_v13) (V c main_v21) (V c main_v16) (V c main_v23) (V c main_v19) :=
  (dat0 V c).arrAt_eq_of_cover 6 _ (fun t _ => written V c t) tiled

end Cert.KernelIdeal.Layer0

end
-- ==== Proof.Layer1.lean ====
/-
  What the second gridded kernel leaves in its output array, for any contents it may be entered with.

  The kernel runs over fifty grid points; point `t` fetches rows `2000 t … 2000 t + 1999` of the node features and
  of the neighbour sums, the two weight matrices and the two bias rows whole, and writes back 2000 rows of output.
  Entry `(p, q)` of what it writes is the perceptron update of row `2000 t + p` (the body's stored value read at an
  entry), so the block is rows `2000 t …` of ONE array of node updates; the fifty blocks tile the 100000 rows, so
  after the last point the output array is that array.
-/
import proofs.«171842_j83184926588949_1_alg».proof.Proof.Gen.KernelIdeal.Frame
import proofs.«171842_j83184926588949_1_alg».proof.Proof.Nodes
import proofs.«171842_j83184926588949_1_alg».proof.Proof.Payload
import Idealize.ShloMosaic.Lib.Pipeline.Value
import Idealize.ShloMosaic.Lib.ValueIdx

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Nodes

variable (V : (c : Dev nD) → (b : Ref sig .tc) → Buf (Elt Ideal) ((c : Thread nD τ).loc b))

theorem zeros : (![0, 0] : Fin 2 → Nat) = fun _ => 0 := funext fun a => by fin_cases a <;> rfl

/-- Where the blocks sit, decided once over the fifty grid points: the node-feature, aggregate and output
    windows are all at block row `t`, column block 0; the weight and bias windows stay at block (0, 0). -/
theorem places : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `p` of the block of node features a point fetches is the row, in the whole array, of the output entry
    the point computes from it (both are row `2000 t + p`). -/
theorem features_row (c : Dev nD) (t : Fin cfg1.N) (p : Fin 2000) (q : Fin 256) :
    (fun l : Fin 256 => iblk1 V c 0 t (ix2 p l))
      = fun l => V c main_v24 (ix2 (node (((cfg1.win 6).blk t).view.emb (ix2 p q))) l) := by
  obtain ⟨e60, e61, e00, e01, -⟩ := places t
  funext l
  show V c main_v24 (((cfg1.win 0).blk t).view.emb (ix2 p l)) = _
  refine congrArg (V c main_v24) (funext fun a => Fin.ext ?_)
  match a with
  | ⟨0, _⟩ => show win1_0.index t (0 : Fin 2) * 2000 + 1 * p.val = win1_6.index t (0 : Fin 2) * 2000 + 1 * p.val; omega
  | ⟨1, _⟩ => show win1_0.index t (1 : Fin 2) * 256 + 1 * l.val = l.val; omega

/-- The same for the block of neighbour sums. -/
theorem sums_row (c : Dev nD) (t : Fin cfg1.N) (p : Fin 2000) (q : Fin 256) :
    (fun l : Fin 256 => iblk1 V c 1 t (ix2 p l))
      = fun l => V c main_v34 (ix2 (node (((cfg1.win 6).blk t).view.emb (ix2 p q))) l) := by
  obtain ⟨e60, e61, e00, e01, e10, e11, -⟩ := places t
  funext l
  show V c main_v34 (((cfg1.win 1).blk t).view.emb (ix2 p l)) = _
  refine congrArg (V c main_v34) (funext fun a => Fin.ext ?_)
  match a with
  | ⟨0, _⟩ => show win1_1.index t (0 : Fin 2) * 2000 + 1 * p.val = win1_6.index t (0 : Fin 2) * 2000 + 1 * p.val; omega
  | ⟨1, _⟩ => show win1_1.index t (1 : Fin 2) * 256 + 1 * l.val = l.val; omega

/-- The output entry's feature is the column inside the block. -/
theorem out_feature (t : Fin cfg1.N) (p : Fin 2000) (q : Fin 256) :
    feat (((cfg1.win 6).blk t).view.emb (ix2 p q)) = q := by
  obtain ⟨e60, e61, -⟩ := places t
  apply Fin.ext
  show win1_6.index t (1 : Fin 2) * 256 + 1 * q.val = q.val; omega

/-- Each weight matrix and bias row is fetched whole: its one block is the array. -/
theorem weights₁_whole (c : Dev nD) (t : Fin cfg1.N) : iblk1 V c 2 t = V c main_v42 := by
  obtain ⟨e60, e61, e00, e01, e10, e11, e20, e21, -⟩ := places t
  funext y
  show V c main_v42 (((cfg1.win 2).blk t).view.emb y) = _
  refine congrArg (V c main_v42) (funext fun a => Fin.ext ?_)
  match a with
  | ⟨0, _⟩ => show win1_2.index t (0 : Fin 2) * 256 + 1 * (y 0).val = (y 0).val; omega
  | ⟨1, _⟩ => show win1_2.index t (1 : Fin 2) * 256 + 1 * (y 1).val = (y 1).val; omega
theorem bias₁_whole (c : Dev nD) (t : Fin cfg1.N) : iblk1 V c 3 t = V c main_v37 := by
  obtain ⟨e60, e61, e00, e01, e10, e11, e20, e21, e30, e31, -⟩ := places t
  funext y
  show V c main_v37 (((cfg1.win 3).blk t).view.emb y) = _
  refine congrArg (V c main_v37) (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega
theorem weights₂_whole (c : Dev nD) (t : Fin cfg1.N) : iblk1 V c 4 t = V c main_v44 := by
  obtain ⟨e60, e61, e00, e01, e10, e11, e20, e21, e30, e31, e40, e41, -⟩ := places t
  funext y
  show V c main_v44 (((cfg1.win 4).blk t).view.emb y) = _
  refine congrArg (V c main_v44) (funext fun a => Fin.ext ?_)
  match a with
  | ⟨0, _⟩ => show win1_4.index t (0 : Fin 2) * 256 + 1 * (y 0).val = (y 0).val; omega
  | ⟨1, _⟩ => show win1_4.index t (1 : Fin 2) * 256 + 1 * (y 1).val = (y 1).val; omega
theorem bias₂_whole (c : Dev nD) (t : Fin cfg1.N) : iblk1 V c 5 t = V c main_v40 := by
  obtain ⟨e60, e61, e00, e01, e10, e11, e20, e21, e30, e31, e40, e41, e50, e51⟩ := places t
  funext y
  show V c main_v40 (((cfg1.win 5).blk t).view.emb y) = _
  refine congrArg (V c main_v40) (funext fun a => Fin.ext ?_)
  match a with
  | ⟨0, _⟩ => show win1_5.index t (0 : Fin 2) * 1 + 1 * (y 0).val = (y 0).val; omega
  | ⟨1, _⟩ => show win1_5.index t (1 : Fin 2) * 256 + 1 * (y 1).val = (y 1).val; omega

/-- WHAT POINT `t` WRITES BACK: rows `2000 t … 2000 t + 1999` of the layer's array of node updates. -/
theorem written (c : Dev nD) (t : Fin cfg1.N) :
    (dat1 V c).flushed 6 t = ((cfg1.win 6).blk t).view.read (Elt Ideal)
      (positive (V c main_v24) (V c main_v34) (V c main_v42) (V c main_v37) (V c main_v44) (V c main_v40)) := by
  show (cfg1.win 6).cut (grid1.coords t) ((dat1 V c).after 6 t) = _
  rw [after1_6]
  unfold out1_6
  rw [View.canon_unit_zero zeros]
  simp only [View.ld_unit_zero (S := S2000x256) zeros, View.ld_unit_zero (S := S256x256) zeros, View.ld_unit_zero (S := S1x256) zeros]
  funext j
  obtain ⟨p, q, rfl⟩ : ∃ (p : Fin 2000) (q : Fin 256), j = ix2 p q := ⟨j 0, j 1, eq_ix2 j⟩
  refine (Cert.KernelIdeal.Payload.pay1_apply (iblk1 V c 0 t) (iblk1 V c 1 t) (iblk1 V c 2 t) (iblk1 V c 3 t) (iblk1 V c 4 t) (iblk1 V c 5 t) p q).trans ?_
  rw [features_row V c t p q, sums_row V c t p q, weights₁_whole V c t, bias₁_whole V c t, weights₂_whole V c t, bias₂_whole V c t]
  show _ = positive (V c main_v24) (V c main_v34) (V c main_v42) (V c main_v37) (V c main_v44) (V c main_v40) (((cfg1.win 6).blk t).view.emb (ix2 p q))
  unfold positive plain
  rw [out_feature t p q]

/-- An index of the array is in point `t`'s block iff each coordinate is in the block's range on its axis. -/
theorem in_block (t : Fin cfg1.N) (i : S100000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v45).slice (win1_6.rect t)).set ↔ _
  rw [View.set_slice_whole, Rect.mem_set_unit]
  exact Iff.rfl

/-- Every node's row lies in the block of the point `r / 2000`, and every point writes back: the fifty blocks tile
    the array. -/
theorem tiled (i : S100000x256.Idx) : ∃ t : Fin cfg1.N, (cfg1.win 6).flush t = true ∧ i ∈ ((cfg1.win 6).blk t).view.set := by
  have hi0 : (i 0).val < 100000 := (i 0).isLt
  have hi1 : (i 1).val < 256 := (i 1).isLt
  have hN : cfg1.N = 50 := N_1
  let t : Fin cfg1.N := ⟨(i 0).val / 2000, by rw [hN]; omega⟩
  obtain ⟨e60, e61, -⟩ := places t
  have e60' : win1_6.index t (0 : Fin 2) = (i 0).val / 2000 := e60
  refine ⟨t, flush1_6 t, ?_⟩
  rw [in_block]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- THE ARRAY the region leaves: every node's update, from the six arrays the region finds. -/
theorem array (c : Dev nD) :
    (dat1 V c).arrAt 6 cfg1.N = positive (V c main_v24) (V c main_v34) (V c main_v42) (V c main_v37) (V c main_v44) (V c main_v40) :=
  (dat1 V c).arrAt_eq_of_cover 6 _ (fun t _ => written V c t) tiled

end Cert.KernelIdeal.Layer1

end
-- ==== Proof.Layer2.lean ====
/-
  What the third gridded kernel leaves in its output array, for any contents it may be entered with.

  The kernel runs over fifty grid points; point `t` fetches rows `2000 t … 2000 t + 1999` of the node features and
  of the neighbour sums, the two weight matrices and the two bias rows whole, and writes back 2000 rows of output.
  Entry `(p, q)` of what it writes is the perceptron update of row `2000 t + p` (the body's stored value read at an
  entry), so the block is rows `2000 t …` of ONE array of node updates; the fifty blocks tile the 100000 rows, so
  after the last point the output array is that array.
-/
import proofs.«171842_j83184926588949_1_alg».proof.Proof.Gen.KernelIdeal.Frame
import proofs.«171842_j83184926588949_1_alg».proof.Proof.Nodes
import proofs.«171842_j83184926588949_1_alg».proof.Proof.Payload
import Idealize.ShloMosaic.Lib.Pipeline.Value
import Idealize.ShloMosaic.Lib.ValueIdx

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Nodes

variable (V : (c : Dev nD) → (b : Ref sig .tc) → Buf (Elt Ideal) ((c : Thread nD τ).loc b))

theorem zeros : (![0, 0] : Fin 2 → Nat) = fun _ => 0 := funext fun a => by fin_cases a <;> rfl

/-- Where the blocks sit, decided once over the fifty grid points: the node-feature, aggregate and output
    windows are all at block row `t`, column block 0; the weight and bias windows stay at block (0, 0). -/
theorem places : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row `p` of the block of node features a point fetches is the row, in the whole array, of the output entry
    the point computes from it (both are row `2000 t + p`). -/
theorem features_row (c : Dev nD) (t : Fin cfg2.N) (p : Fin 2000) (q : Fin 256) :
    (fun l : Fin 256 => iblk2 V c 0 t (ix2 p l))
      = fun l => V c main_v45 (ix2 (node (((cfg2.win 6).blk t).view.emb (ix2 p q))) l) := by
  obtain ⟨e60, e61, e00, e01, -⟩ := places t
  funext l
  show V c main_v45 (((cfg2.win 0).blk t).view.emb (ix2 p l)) = _
  refine congrArg (V c main_v45) (funext fun a => Fin.ext ?_)
  match a with
  | ⟨0, _⟩ => show win2_0.index t (0 : Fin 2) * 2000 + 1 * p.val = win2_6.index t (0 : Fin 2) * 2000 + 1 * p.val; omega
  | ⟨1, _⟩ => show win2_0.index t (1 : Fin 2) * 256 + 1 * l.val = l.val; omega

/-- The same for the block of neighbour sums. -/
theorem sums_row (c : Dev nD) (t : Fin cfg2.N) (p : Fin 2000) (q : Fin 256) :
    (fun l : Fin 256 => iblk2 V c 1 t (ix2 p l))
      = fun l => V c main_v55 (ix2 (node (((cfg2.win 6).blk t).view.emb (ix2 p q))) l) := by
  obtain ⟨e60, e61, e00, e01, e10, e11, -⟩ := places t
  funext l
  show V c main_v55 (((cfg2.win 1).blk t).view.emb (ix2 p l)) = _
  refine congrArg (V c main_v55) (funext fun a => Fin.ext ?_)
  match a with
  | ⟨0, _⟩ => show win2_1.index t (0 : Fin 2) * 2000 + 1 * p.val = win2_6.index t (0 : Fin 2) * 2000 + 1 * p.val; omega
  | ⟨1, _⟩ => show win2_1.index t (1 : Fin 2) * 256 + 1 * l.val = l.val; omega

/-- The output entry's feature is the column inside the block. -/
theorem out_feature (t : Fin cfg2.N) (p : Fin 2000) (q : Fin 256) :
    feat (((cfg2.win 6).blk t).view.emb (ix2 p q)) = q := by
  obtain ⟨e60, e61, -⟩ := places t
  apply Fin.ext
  show win2_6.index t (1 : Fin 2) * 256 + 1 * q.val = q.val; omega

/-- Each weight matrix and bias row is fetched whole: its one block is the array. -/
theorem weights₁_whole (c : Dev nD) (t : Fin cfg2.N) : iblk2 V c 2 t = V c main_v63 := by
  obtain ⟨e60, e61, e00, e01, e10, e11, e20, e21, -⟩ := places t
  funext y
  show V c main_v63 (((cfg2.win 2).blk t).view.emb y) = _
  refine congrArg (V c main_v63) (funext fun a => Fin.ext ?_)
  match a with
  | ⟨0, _⟩ => show win2_2.index t (0 : Fin 2) * 256 + 1 * (y 0).val = (y 0).val; omega
  | ⟨1, _⟩ => show win2_2.index t (1 : Fin 2) * 256 + 1 * (y 1).val = (y 1).val; omega
theorem bias₁_whole (c : Dev nD) (t : Fin cfg2.N) : iblk2 V c 3 t = V c main_v58 := by
  obtain ⟨e60, e61, e00, e01, e10, e11, e20, e21, e30, e31, -⟩ := places t
  funext y
  show V c main_v58 (((cfg2.win 3).blk t).view.emb y) = _
  refine congrArg (V c main_v58) (funext fun a => Fin.ext ?_)
  match a with
  | ⟨0, _⟩ => show win2_3.index t (0 : Fin 2) * 1 + 1 * (y 0).val = (y 0).val; omega
  | ⟨1, _⟩ => show win2_3.index t (1 : Fin 2) * 256 + 1 * (y 1).val = (y 1).val; omega
theorem weights₂_whole (c : Dev nD) (t : Fin cfg2.N) : iblk2 V c 4 t = V c main_v65 := by
  obtain ⟨e60, e61, e00, e01, e10, e11, e20, e21, e30, e31, e40, e41, -⟩ := places t
  funext y
  show V c main_v65 (((cfg2.win 4).blk t).view.emb y) = _
  refine congrArg (V c main_v65) (funext fun a => Fin.ext ?_)
  match a with
  | ⟨0, _⟩ => show win2_4.index t (0 : Fin 2) * 256 + 1 * (y 0).val = (y 0).val; omega
  | ⟨1, _⟩ => show win2_4.index t (1 : Fin 2) * 256 + 1 * (y 1).val = (y 1).val; omega
theorem bias₂_whole (c : Dev nD) (t : Fin cfg2.N) : iblk2 V c 5 t = V c main_v61 := by
  obtain ⟨e60, e61, e00, e01, e10, e11, e20, e21, e30, e31, e40, e41, e50, e51⟩ := places t
  funext y
  show V c main_v61 (((cfg2.win 5).blk t).view.emb y) = _
  refine congrArg (V c main_v61) (funext fun a => Fin.ext ?_)
  match a with
  | ⟨0, _⟩ => show win2_5.index t (0 : Fin 2) * 1 + 1 * (y 0).val = (y 0).val; omega
  | ⟨1, _⟩ => show win2_5.index t (1 : Fin 2) * 256 + 1 * (y 1).val = (y 1).val; omega

/-- WHAT POINT `t` WRITES BACK: rows `2000 t … 2000 t + 1999` of the layer's array of node updates. -/
theorem written (c : Dev nD) (t : Fin cfg2.N) :
    (dat2 V c).flushed 6 t = ((cfg2.win 6).blk t).view.read (Elt Ideal)
      (plain (V c main_v45) (V c main_v55) (V c main_v63) (V c main_v58) (V c main_v65) (V c main_v61)) := by
  show (cfg2.win 6).cut (grid2.coords t) ((dat2 V c).after 6 t) = _
  rw [after2_6]
  unfold out2_6
  rw [View.canon_unit_zero zeros]
  simp only [View.ld_unit_zero (S := S2000x256) zeros, View.ld_unit_zero (S := S256x256) zeros, View.ld_unit_zero (S := S1x256) zeros]
  funext j
  obtain ⟨p, q, rfl⟩ : ∃ (p : Fin 2000) (q : Fin 256), j = ix2 p q := ⟨j 0, j 1, eq_ix2 j⟩
  refine (Cert.KernelIdeal.Payload.pay2_apply (iblk2 V c 0 t) (iblk2 V c 1 t) (iblk2 V c 2 t) (iblk2 V c 3 t) (iblk2 V c 4 t) (iblk2 V c 5 t) p q).trans ?_
  rw [features_row V c t p q, sums_row V c t p q, weights₁_whole V c t, bias₁_whole V c t, weights₂_whole V c t, bias₂_whole V c t]
  show _ = plain (V c main_v45) (V c main_v55) (V c main_v63) (V c main_v58) (V c main_v65) (V c main_v61) (((cfg2.win 6).blk t).view.emb (ix2 p q))
  unfold plain
  rw [out_feature t p q]

/-- An index of the array is in point `t`'s block iff each coordinate is in the block's range on its axis. -/
theorem in_block (t : Fin cfg2.N) (i : S100000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v66).slice (win2_6.rect t)).set ↔ _
  rw [View.set_slice_whole, Rect.mem_set_unit]
  exact Iff.rfl

/-- Every node's row lies in the block of the point `r / 2000`, and every point writes back: the fifty blocks tile
    the array. -/
theorem tiled (i : S100000x256.Idx) : ∃ t : Fin cfg2.N, (cfg2.win 6).flush t = true ∧ i ∈ ((cfg2.win 6).blk t).view.set := by
  have hi0 : (i 0).val < 100000 := (i 0).isLt
  have hi1 : (i 1).val < 256 := (i 1).isLt
  have hN : cfg2.N = 50 := N_2
  let t : Fin cfg2.N := ⟨(i 0).val / 2000, by rw [hN]; omega⟩
  obtain ⟨e60, e61, -⟩ := places t
  have e60' : win2_6.index t (0 : Fin 2) = (i 0).val / 2000 := e60
  refine ⟨t, flush2_6 t, ?_⟩
  rw [in_block]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 256 ≤ (i 1).val ∧ (i 1).val < win2_6.index t (1 : Fin 2) * 256 + 256; omega

/-- THE ARRAY the region leaves: every node's update, from the six arrays the region finds. -/
theorem array (c : Dev nD) :
    (dat2 V c).arrAt 6 cfg2.N = plain (V c main_v45) (V c main_v55) (V c main_v63) (V c main_v58) (V c main_v65) (V c main_v61) :=
  (dat2 V c).arrAt_eq_of_cover 6 _ (fun t _ => written V c t) tiled

end Cert.KernelIdeal.Layer2

end
-- ==== Proof.Glue.lean ====
/-
  The plain array operations that both programs apply around the perceptron layers, named once.

  An edge list is two rows of node numbers, sources and targets. A node's neighbour sum adds, into a zero array, the
  feature row of every edge's source at the edge's target (a gather of 320000 rows followed by a scatter-add); a
  source number below zero counts from the end. Layer `k` uses slice `k` of each stacked weight tensor as a 256×256
  matrix and slice `k` of each stacked bias as a length-256 vector. The last step averages node rows per graph: the
  rows scatter-added by graph number, divided by the per-graph node counts (at least one). None of these is ever
  opened below: the two programs apply the same operations to their layers' outputs, so it is enough that the
  layers' outputs agree.
-/
import proofs.«171842_j83184926588949_1_alg».proof.Proof.Gen.ReferenceIdeal
import Idealize.ShloMosaic.PureOps.Ideal

noncomputable section

namespace Cert.ReferenceIdeal.Glue

open Idealize.ShloMosaic Cert.ReferenceIdeal Cert.ReferenceIdeal.Gen

abbrev Feats : Type := (⟨S100000x256, .f32⟩ : BufTy).Contents (Elt Ideal)
abbrev Edges : Type := (⟨S2x320000, .i32⟩ : BufTy).Contents (Elt Ideal)
abbrev Graphs : Type := (⟨S100000, .i32⟩ : BufTy).Contents (Elt Ideal)
abbrev Stack : Type := (⟨S3x256x256, .f32⟩ : BufTy).Contents (Elt Ideal)
abbrev Biases : Type := (⟨S3x256, .f32⟩ : BufTy).Contents (Elt Ideal)

/-- The edges' source numbers: the first row of the edge list. -/
def firstRow (e : Edges) : (⟨S320000, .i32⟩ : BufTy).Contents (Elt Ideal) :=
  shapeCast _ (extractStridedSlice S1x320000 ![0, 0] e slices_S2x320000_S1x320000_0_0) shapeCasts_S1x320000_S320000
/-- The edges' target numbers: the second row. -/
def secondRow (e : Edges) : (⟨S320000, .i32⟩ : BufTy).Contents (Elt Ideal) :=
  shapeCast _ (extractStridedSlice S1x320000 ![1, 0] e slices_S2x320000_S1x320000_1_0) shapeCasts_S1x320000_S320000

/-- A node's neighbour sum: the features of every edge's source (a negative number counted from the end), added at
    the edge's target into a zero array. -/
def neighbours (h : Feats) (e : Edges) : Feats :=
  Host.scatterAdd (F := Ideal) scatter_S100000x256_S320000x1_S320000x256_1_0_0_1 (broadcastInDim S100000x256 ![] bcast_S_S100000x256 (constant (F := Ideal) S_ .f32 0x00000000#32)) (broadcastInDim S320000x1 ![0] bcast_S320000_S320000x1_0 (secondRow e)) (Host.gather gather_S100000x256_S320000x1_S320000x256_1_0_n_n_0_1_1256 h (broadcastInDim S320000x1 ![0] bcast_S320000_S320000x1_0 (select (cmpi .slt (firstRow e) (broadcastInDim S320000 ![] bcast_S_S320000 (constantI S_ 32 0#32))) (addi (firstRow e) (broadcastInDim S320000 ![] bcast_S_S320000 (constantI S_ 32 100000#32))) (firstRow e))))

/-- Slice `0`, `1`, `2` of a stack of three 256×256 matrices. -/
def matrix₀ (W : Stack) : (⟨S256x256, .f32⟩ : BufTy).Contents (Elt Ideal) :=
  shapeCast _ (extractStridedSlice S1x256x256 ![0, 0, 0] W slices_S3x256x256_S1x256x256_0_0_0) shapeCasts_S1x256x256_S256x256
def matrix₁ (W : Stack) : (⟨S256x256, .f32⟩ : BufTy).Contents (Elt Ideal) :=
  shapeCast _ (extractStridedSlice S1x256x256 ![1, 0, 0] W slices_S3x256x256_S1x256x256_1_0_0) shapeCasts_S1x256x256_S256x256
def matrix₂ (W : Stack) : (⟨S256x256, .f32⟩ : BufTy).Contents (Elt Ideal) :=
  shapeCast _ (extractStridedSlice S1x256x256 ![2, 0, 0] W slices_S3x256x256_S1x256x256_2_0_0) shapeCasts_S1x256x256_S256x256

/-- Slice `0`, `1`, `2` of a stack of three length-256 bias vectors. -/
def vector₀ (B : Biases) : (⟨S256, .f32⟩ : BufTy).Contents (Elt Ideal) :=
  shapeCast _ (extractStridedSlice S1x256 ![0, 0] B slices_S3x256_S1x256_0_0) shapeCasts_S1x256_S256
def vector₁ (B : Biases) : (⟨S256, .f32⟩ : BufTy).Contents (Elt Ideal) :=
  shapeCast _ (extractStridedSlice S1x256 ![1, 0] B slices_S3x256_S1x256_1_0) shapeCasts_S1x256_S256
def vector₂ (B : Biases) : (⟨S256, .f32⟩ : BufTy).Contents (Elt Ideal) :=
  shapeCast _ (extractStridedSlice S1x256 ![2, 0] B slices_S3x256_S1x256_2_0) shapeCasts_S1x256_S256

/-- The per-graph mean of the node rows: the rows added per graph number, over the number of nodes of the graph
    (or one, for a graph with none). -/
def graphMeans (h : Feats) (g : Graphs) : (⟨S1024x256, .f32⟩ : BufTy).Contents (Elt Ideal) :=
  Host.divf (F := Ideal) (Host.scatterAdd (F := Ideal) scatter_S1024x256_S100000x1_S100000x256_1_0_0_1 (broadcastInDim S1024x256 ![] bcast_S_S1024x256 (constant (F := Ideal) S_ .f32 0x00000000#32)) (broadcastInDim S100000x1 ![0] bcast_S100000_S100000x1_0 g) h) (broadcastInDim S1024x256 ![0, 1] bcast_S1024x1_S1024x256_0_1 (broadcastInDim S1024x1 ![0] bcast_S1024_S1024x1_0 (maximumf (Host.scatterAdd (F := Ideal) scatter_S1024_S100000x1_S100000_n_0_0_1 (broadcastInDim S1024 ![] bcast_S_S1024 (constant (F := Ideal) S_ .f32 0x00000000#32)) (broadcastInDim S100000x1 ![0] bcast_S100000_S100000x1_0 g) (broadcastInDim S100000 ![] bcast_S_S100000 (constant (F := Ideal) S_ .f32 0x3F800000#32))) (broadcastInDim S1024 ![] bcast_S_S1024 (constant (F := Ideal) S_ .f32 0x3F800000#32)))))

end Cert.ReferenceIdeal.Glue

end
-- ==== Proof.Boundary1.lean ====
/-
  What the buffers the first kernel reads hold when it is entered: the first stretch of host operations applied
  to the launch memory. The node features are the first argument untouched; the neighbour sums, the first slices
  of the weights and biases (the biases recast as rows) and the two rows of the edge list are the shared array
  operations of the arguments.
-/
import proofs.«171842_j83184926588949_1_alg».proof.Proof.Gen.KernelIdeal.Frame
import proofs.«171842_j83184926588949_1_alg».proof.Proof.Glue
import Idealize.ShloMosaic.Lib.StableHlo.Run

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen
open Cert.ReferenceIdeal.Glue

variable (m : (ℓ : Loc nD τ sig) → Buf (Elt Ideal) ℓ) (ρ : Dev nD → PrngReg)

/-- A length-256 bias vector as the 1×256 row the kernel's bias windows stage. -/
abbrev asRow (y : (⟨S256, .f32⟩ : BufTy).Contents (Elt Ideal)) : (⟨S1x256, .f32⟩ : BufTy).Contents (Elt Ideal) :=
  shapeCast S1x256 y shapeCasts_S256_S1x256

/-! ### At the first kernel's entry -/

set_option maxHeartbeats 4000000 in
theorem entry_feats (c : Dev nD) : V1 m ρ c main_arg0 = (m ((c : Thread nD τ).loc main_arg0)) := by
  show StableHlo.after hostOps0 (W0 m ρ c) (Proc.devRef .tc main_arg0) = _
  after_results_simp <;> rfl
set_option maxHeartbeats 4000000 in
theorem entry_sums (c : Dev nD) : V1 m ρ c main_v13 = neighbours (m ((c : Thread nD τ).loc main_arg0)) (m ((c : Thread nD τ).loc main_arg1)) := by
  show StableHlo.after hostOps0 (W0 m ρ c) (Proc.devRef .tc main_v13) = _
  after_results_simp <;> rfl
set_option maxHeartbeats 4000000 in
theorem entry_weights₁ (c : Dev nD) : V1 m ρ c main_v21 = matrix₀ (m ((c : Thread nD τ).loc main_arg3)) := by
  show StableHlo.after hostOps0 (W0 m ρ c) (Proc.devRef .tc main_v21) = _
  after_results_simp <;> rfl
set_option maxHeartbeats 4000000 in
theorem entry_bias₁ (c : Dev nD) : V1 m ρ c main_v16 = asRow (vector₀ (m ((c : Thread nD τ).loc main_arg4))) := by
  show StableHlo.after hostOps0 (W0 m ρ c) (Proc.devRef .tc main_v16) = _
  after_results_simp <;> rfl
set_option maxHeartbeats 4000000 in
theorem entry_weights₂ (c : Dev nD) : V1 m ρ c main_v23 = matrix₀ (m ((c : Thread nD τ).loc main_arg5)) := by
  show StableHlo.after hostOps0 (W0 m ρ c) (Proc.devRef .tc main_v23) = _
  after_results_simp <;> rfl
set_option maxHeartbeats 4000000 in
theorem entry_bias₂ (c : Dev nD) : V1 m ρ c main_v19 = asRow (vector₀ (m ((c : Thread nD τ).loc main_arg6))) := by
  show StableHlo.after hostOps0 (W0 m ρ c) (Proc.devRef .tc main_v19) = _
  after_results_simp <;> rfl

/-! ### What later segments still read of this stretch: the edge rows, and the arguments themselves -/

set_option maxHeartbeats 4000000 in
theorem sources (c : Dev nD) : W1 m ρ c (Proc.devRef .tc main_v1) = firstRow (m ((c : Thread nD τ).loc main_arg1)) := by
  show StableHlo.after hostOps0 (W0 m ρ c) (Proc.devRef .tc main_v1) = _
  after_results_simp <;> rfl
set_option maxHeartbeats 4000000 in
theorem targets (c : Dev nD) : W1 m ρ c (Proc.devRef .tc main_v3) = secondRow (m ((c : Thread nD τ).loc main_arg1)) := by
  show StableHlo.after hostOps0 (W0 m ρ c) (Proc.devRef .tc main_v3) = _
  after_results_simp <;> rfl
set_option maxHeartbeats 4000000 in
theorem arg2 (c : Dev nD) : W1 m ρ c (Proc.devRef .tc main_arg2) = (m ((c : Thread nD τ).loc main_arg2)) := by
  show StableHlo.after hostOps0 (W0 m ρ c) (Proc.devRef .tc main_arg2) = _
  after_results_simp <;> rfl
set_option maxHeartbeats 4000000 in
theorem arg3 (c : Dev nD) : W1 m ρ c (Proc.devRef .tc main_arg3) = (m ((c : Thread nD τ).loc main_arg3)) := by
  show StableHlo.after hostOps0 (W0 m ρ c) (Proc.devRef .tc main_arg3) = _
  after_results_simp <;> rfl
set_option maxHeartbeats 4000000 in
theorem arg4 (c : Dev nD) : W1 m ρ c (Proc.devRef .tc main_arg4) = (m ((c : Thread nD τ).loc main_arg4)) := by
  show StableHlo.after hostOps0 (W0 m ρ c) (Proc.devRef .tc main_arg4) = _
  after_results_simp <;> rfl
set_option maxHeartbeats 4000000 in
theorem arg5 (c : Dev nD) : W1 m ρ c (Proc.devRef .tc main_arg5) = (m ((c : Thread nD τ).loc main_arg5)) := by
  show StableHlo.after hostOps0 (W0 m ρ c) (Proc.devRef .tc main_arg5) = _
  after_results_simp <;> rfl
set_option maxHeartbeats 4000000 in
theorem arg6 (c : Dev nD) : W1 m ρ c (Proc.devRef .tc main_arg6) = (m ((c : Thread nD τ).loc main_arg6)) := by
  show StableHlo.after hostOps0 (W0 m ρ c) (Proc.devRef .tc main_arg6) = _
  after_results_simp <;> rfl

end Cert.KernelIdeal.Boundary

end
-- ==== Proof.Boundary3.lean ====
/-
  What the buffers the second kernel reads hold when it is entered, from what the buffers held when the
  first kernel returned: the previous kernel's output is carried through untouched, the neighbour sums are the
  shared gather and scatter-add of that output along the edge rows, and the weights and biases are the next slices
  of the arguments.
-/
import proofs.«171842_j83184926588949_1_alg».proof.Proof.Gen.KernelIdeal.Frame
import proofs.«171842_j83184926588949_1_alg».proof.Proof.Glue
import proofs.«171842_j83184926588949_1_alg».proof.Proof.Boundary1
import Idealize.ShloMosaic.Lib.StableHlo.Run

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen
open Cert.ReferenceIdeal.Glue

variable (m : (ℓ : Loc nD τ sig) → Buf (Elt Ideal) ℓ) (ρ : Dev nD → PrngReg)

variable (K : Feats) (e : Edges) (W₁ : Stack) (B₁ : Biases) (W₂ : Stack) (B₂ : Biases)

set_option maxHeartbeats 4000000 in
theorem feats₁ (c : Dev nD) (hK : W2 m ρ c (Proc.devRef .tc main_v24) = K) : V3 m ρ c main_v24 = K := by
  show StableHlo.after hostOps1 (W2 m ρ c) (Proc.devRef .tc main_v24) = _
  after_results_simp
  exact hK
set_option maxHeartbeats 4000000 in
theorem sums₁ (c : Dev nD) (hK : W2 m ρ c (Proc.devRef .tc main_v24) = K) (hs : W2 m ρ c (Proc.devRef .tc main_v1) = firstRow e) (ht : W2 m ρ c (Proc.devRef .tc main_v3) = secondRow e) :
    V3 m ρ c main_v34 = neighbours K e := by
  show StableHlo.after hostOps1 (W2 m ρ c) (Proc.devRef .tc main_v34) = _
  after_results_simp
  rw [hK, hs, ht]
  rfl
set_option maxHeartbeats 4000000 in
theorem weights₁_₁ (c : Dev nD) (h : W2 m ρ c (Proc.devRef .tc main_arg3) = W₁) : V3 m ρ c main_v42 = matrix₁ W₁ := by
  show StableHlo.after hostOps1 (W2 m ρ c) (Proc.devRef .tc main_v42) = _
  after_results_simp
  rw [h]
  rfl
set_option maxHeartbeats 4000000 in
theorem bias₁_₁ (c : Dev nD) (h : W2 m ρ c (Proc.devRef .tc main_arg4) = B₁) : V3 m ρ c main_v37 = asRow (vector₁ B₁) := by
  show StableHlo.after hostOps1 (W2 m ρ c) (Proc.devRef .tc main_v37) = _
  after_results_simp
  rw [h]
  rfl
set_option maxHeartbeats 4000000 in
theorem weights₂_₁ (c : Dev nD) (h : W2 m ρ c (Proc.devRef .tc main_arg5) = W₂) : V3 m ρ c main_v44 = matrix₁ W₂ := by
  show StableHlo.after hostOps1 (W2 m ρ c) (Proc.devRef .tc main_v44) = _
  after_results_simp
  rw [h]
  rfl
set_option maxHeartbeats 4000000 in
theorem bias₂_₁ (c : Dev nD) (h : W2 m ρ c (Proc.devRef .tc main_arg6) = B₂) : V3 m ρ c main_v40 = asRow (vector₁ B₂) := by
  show StableHlo.after hostOps1 (W2 m ρ c) (Proc.devRef .tc main_v40) = _
  after_results_simp
  rw [h]
  rfl

/-! ### Carried through this stretch untouched: the edge rows and the arguments later segments read -/

set_option maxHeartbeats 4000000 in
theorem keep3_v1 (c : Dev nD) : W3 m ρ c (Proc.devRef .tc main_v1) = W2 m ρ c (Proc.devRef .tc main_v1) := by
  show StableHlo.after hostOps1 (W2 m ρ c) (Proc.devRef .tc main_v1) = _
  after_results_simp
set_option maxHeartbeats 4000000 in
theorem keep3_v3 (c : Dev nD) : W3 m ρ c (Proc.devRef .tc main_v3) = W2 m ρ c (Proc.devRef .tc main_v3) := by
  show StableHlo.after hostOps1 (W2 m ρ c) (Proc.devRef .tc main_v3) = _
  after_results_simp
set_option maxHeartbeats 4000000 in
theorem keep3_arg2 (c : Dev nD) : W3 m ρ c (Proc.devRef .tc main_arg2) = W2 m ρ c (Proc.devRef .tc main_arg2) := by
  show StableHlo.after hostOps1 (W2 m ρ c) (Proc.devRef .tc main_arg2) = _
  after_results_simp
set_option maxHeartbeats 4000000 in
theorem keep3_arg3 (c : Dev nD) : W3 m ρ c (Proc.devRef .tc main_arg3) = W2 m ρ c (Proc.devRef .tc main_arg3) := by
  show StableHlo.after hostOps1 (W2 m ρ c) (Proc.devRef .tc main_arg3) = _
  after_results_simp
set_option maxHeartbeats 4000000 in
theorem keep3_arg4 (c : Dev nD) : W3 m ρ c (Proc.devRef .tc main_arg4) = W2 m ρ c (Proc.devRef .tc main_arg4) := by
  show StableHlo.after hostOps1 (W2 m ρ c) (Proc.devRef .tc main_arg4) = _
  after_results_simp
set_option maxHeartbeats 4000000 in
theorem keep3_arg5 (c : Dev nD) : W3 m ρ c (Proc.devRef .tc main_arg5) = W2 m ρ c (Proc.devRef .tc main_arg5) := by
  show StableHlo.after hostOps1 (W2 m ρ c) (Proc.devRef .tc main_arg5) = _
  after_results_simp
set_option maxHeartbeats 4000000 in
theorem keep3_arg6 (c : Dev nD) : W3 m ρ c (Proc.devRef .tc main_arg6) = W2 m ρ c (Proc.devRef .tc main_arg6) := by
  show StableHlo.after hostOps1 (W2 m ρ c) (Proc.devRef .tc main_arg6) = _
  after_results_simp

end Cert.KernelIdeal.Boundary

end
-- ==== Proof.Boundary5.lean ====
/-
  What the buffers the third kernel reads hold when it is entered, from what the buffers held when the
  second kernel returned: the previous kernel's output is carried through untouched, the neighbour sums are the
  shared gather and scatter-add of that output along the edge rows, and the weights and biases are the next slices
  of the arguments.
-/
import proofs.«171842_j83184926588949_1_alg».proof.Proof.Gen.KernelIdeal.Frame
import proofs.«171842_j83184926588949_1_alg».proof.Proof.Glue
import proofs.«171842_j83184926588949_1_alg».proof.Proof.Boundary1
import Idealize.ShloMosaic.Lib.StableHlo.Run

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen
open Cert.ReferenceIdeal.Glue

variable (m : (ℓ : Loc nD τ sig) → Buf (Elt Ideal) ℓ) (ρ : Dev nD → PrngReg)

variable (K : Feats) (e : Edges) (W₁ : Stack) (B₁ : Biases) (W₂ : Stack) (B₂ : Biases)

set_option maxHeartbeats 4000000 in
theorem feats₂ (c : Dev nD) (hK : W4 m ρ c (Proc.devRef .tc main_v45) = K) : V5 m ρ c main_v45 = K := by
  show StableHlo.after hostOps2 (W4 m ρ c) (Proc.devRef .tc main_v45) = _
  after_results_simp
  exact hK
set_option maxHeartbeats 4000000 in
theorem sums₂ (c : Dev nD) (hK : W4 m ρ c (Proc.devRef .tc main_v45) = K) (hs : W4 m ρ c (Proc.devRef .tc main_v1) = firstRow e) (ht : W4 m ρ c (Proc.devRef .tc main_v3) = secondRow e) :
    V5 m ρ c main_v55 = neighbours K e := by
  show StableHlo.after hostOps2 (W4 m ρ c) (Proc.devRef .tc main_v55) = _
  after_results_simp
  rw [hK, hs, ht]
  rfl
set_option maxHeartbeats 4000000 in
theorem weights₁_₂ (c : Dev nD) (h : W4 m ρ c (Proc.devRef .tc main_arg3) = W₁) : V5 m ρ c main_v63 = matrix₂ W₁ := by
  show StableHlo.after hostOps2 (W4 m ρ c) (Proc.devRef .tc main_v63) = _
  after_results_simp
  rw [h]
  rfl
set_option maxHeartbeats 4000000 in
theorem bias₁_₂ (c : Dev nD) (h : W4 m ρ c (Proc.devRef .tc main_arg4) = B₁) : V5 m ρ c main_v58 = asRow (vector₂ B₁) := by
  show StableHlo.after hostOps2 (W4 m ρ c) (Proc.devRef .tc main_v58) = _
  after_results_simp
  rw [h]
  rfl
set_option maxHeartbeats 4000000 in
theorem weights₂_₂ (c : Dev nD) (h : W4 m ρ c (Proc.devRef .tc main_arg5) = W₂) : V5 m ρ c main_v65 = matrix₂ W₂ := by
  show StableHlo.after hostOps2 (W4 m ρ c) (Proc.devRef .tc main_v65) = _
  after_results_simp
  rw [h]
  rfl
set_option maxHeartbeats 4000000 in
theorem bias₂_₂ (c : Dev nD) (h : W4 m ρ c (Proc.devRef .tc main_arg6) = B₂) : V5 m ρ c main_v61 = asRow (vector₂ B₂) := by
  show StableHlo.after hostOps2 (W4 m ρ c) (Proc.devRef .tc main_v61) = _
  after_results_simp
  rw [h]
  rfl

/-! ### Carried through this stretch untouched: the edge rows and the arguments later segments read -/

set_option maxHeartbeats 4000000 in
theorem keep5_v1 (c : Dev nD) : W5 m ρ c (Proc.devRef .tc main_v1) = W4 m ρ c (Proc.devRef .tc main_v1) := by
  show StableHlo.after hostOps2 (W4 m ρ c) (Proc.devRef .tc main_v1) = _
  after_results_simp
set_option maxHeartbeats 4000000 in
theorem keep5_v3 (c : Dev nD) : W5 m ρ c (Proc.devRef .tc main_v3) = W4 m ρ c (Proc.devRef .tc main_v3) := by
  show StableHlo.after hostOps2 (W4 m ρ c) (Proc.devRef .tc main_v3) = _
  after_results_simp
set_option maxHeartbeats 4000000 in
theorem keep5_arg2 (c : Dev nD) : W5 m ρ c (Proc.devRef .tc main_arg2) = W4 m ρ c (Proc.devRef .tc main_arg2) := by
  show StableHlo.after hostOps2 (W4 m ρ c) (Proc.devRef .tc main_arg2) = _
  after_results_simp
set_option maxHeartbeats 4000000 in
theorem keep5_arg3 (c : Dev nD) : W5 m ρ c (Proc.devRef .tc main_arg3) = W4 m ρ c (Proc.devRef .tc main_arg3) := by
  show StableHlo.after hostOps2 (W4 m ρ c) (Proc.devRef .tc main_arg3) = _
  after_results_simp
set_option maxHeartbeats 4000000 in
theorem keep5_arg4 (c : Dev nD) : W5 m ρ c (Proc.devRef .tc main_arg4) = W4 m ρ c (Proc.devRef .tc main_arg4) := by
  show StableHlo.after hostOps2 (W4 m ρ c) (Proc.devRef .tc main_arg4) = _
  after_results_simp
set_option maxHeartbeats 4000000 in
theorem keep5_arg5 (c : Dev nD) : W5 m ρ c (Proc.devRef .tc main_arg5) = W4 m ρ c (Proc.devRef .tc main_arg5) := by
  show StableHlo.after hostOps2 (W4 m ρ c) (Proc.devRef .tc main_arg5) = _
  after_results_simp
set_option maxHeartbeats 4000000 in
theorem keep5_arg6 (c : Dev nD) : W5 m ρ c (Proc.devRef .tc main_arg6) = W4 m ρ c (Proc.devRef .tc main_arg6) := by
  show StableHlo.after hostOps2 (W4 m ρ c) (Proc.devRef .tc main_arg6) = _
  after_results_simp

end Cert.KernelIdeal.Boundary

end
-- ==== Proof.Boundary7.lean ====
/-
  What the result buffer holds after the last stretch of host operations, from what the buffers held when the third
  kernel returned: the per-graph means of the third kernel's output rows along the graph numbers.
-/
import proofs.«171842_j83184926588949_1_alg».proof.Proof.Gen.KernelIdeal.Frame
import proofs.«171842_j83184926588949_1_alg».proof.Proof.Glue
import proofs.«171842_j83184926588949_1_alg».proof.Proof.Boundary1
import Idealize.ShloMosaic.Lib.StableHlo.Run

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen
open Cert.ReferenceIdeal.Glue

variable (m : (ℓ : Loc nD τ sig) → Buf (Elt Ideal) ℓ) (ρ : Dev nD → PrngReg)

variable (K : Feats) (g : Graphs)

set_option maxHeartbeats 4000000 in
theorem result (c : Dev nD) (hK : W6 m ρ c (Proc.devRef .tc main_v66) = K) (hg : W6 m ρ c (Proc.devRef .tc main_arg2) = g) :
    W7 m ρ c (Proc.devRef .tc main_v78) = graphMeans K g := by
  show StableHlo.after hostOps3 (W6 m ρ c) (Proc.devRef .tc main_v78) = _
  after_results_simp
  rw [hK, hg]
  rfl

end Cert.KernelIdeal.Boundary

end
-- ==== Proof.RefLayer.lean ====
/-
  One layer of the reference program, read at one entry.

  The reference computes a layer over all 100000 node rows at once: `(relu ((H + A) · W₁ + b₁)) · W₂ + b₂`, with each bias
  vector of length 256 first made a 1×256 row and then repeated over the rows, and the positive part taken against the
  scalar zero repeated over the whole array. On the extended reals the host's product of two arrays, read at `(r, q)`,
  is the finite sum over the one contracted axis `k : Fin 256` of the left operand at `(r, k)` times the right operand at
  `(k, q)`; so entry `(r, q)` of the layer is the perceptron update of row `r` of `H` and row `r` of `A` at output feature
  `q`, and no other row enters.
-/
import proofs.«171842_j83184926588949_1_alg».proof.Proof.Gen.ReferenceIdeal
import proofs.«171842_j83184926588949_1_alg».proof.Proof.Perceptron
import Idealize.ShloMosaic.PureOps.Ideal.Laws
import Idealize.ShloMosaic.Lib.ValueIdx
import Idealize.ShloMosaic.Lib.Pipeline.Value

noncomputable section
open Idealize.ShloMosaic Idealize.ShloMosaic.ValueIdx
open scoped BigOperators

namespace Cert.ReferenceIdeal.Layer
open Cert.ReferenceIdeal Cert.ReferenceIdeal.Gen

/-- the reference's last layer, as its host operations -/
def plain (H A : FVec Ideal S100000x256 .f32) (W1 : FVec Ideal S256x256 .f32) (b1 : FVec Ideal S256 .f32)
    (W2 : FVec Ideal S256x256 .f32) (b2 : FVec Ideal S256 .f32) : FVec Ideal S100000x256 .f32 :=
  addf (Host.dotGeneral dot_S100000x256_S256x256_S100000x256_1_0_0_1_n_n none
      (maximumf (addf (Host.dotGeneral dot_S100000x256_S256x256_S100000x256_1_0_0_1_n_n none (addf H A) W1)
          (broadcastInDim S100000x256 ![0, 1] bcast_S1x256_S100000x256_0_1 (broadcastInDim S1x256 ![1] bcast_S256_S1x256_1 b1)))
        (broadcastInDim S100000x256 ![] bcast_S_S100000x256 (constant (F := Ideal) S_ .f32 0x00000000#32))) W2)
    (broadcastInDim S100000x256 ![0, 1] bcast_S1x256_S100000x256_0_1 (broadcastInDim S1x256 ![1] bcast_S256_S1x256_1 b2))

def withRelu (H A : FVec Ideal S100000x256 .f32) (W1 : FVec Ideal S256x256 .f32) (b1 : FVec Ideal S256 .f32)
    (W2 : FVec Ideal S256x256 .f32) (b2 : FVec Ideal S256 .f32) : FVec Ideal S100000x256 .f32 :=
  maximumf (plain H A W1 b1 W2 b2) (broadcastInDim S100000x256 ![] bcast_S_S100000x256 (constant (F := Ideal) S_ .f32 0x00000000#32))

/-! The reference's dot has one contracted axis: output entry `(i₀, i₁)` and contraction coordinate `c` read the left
operand at `(i₀, c)` and the right operand at `(c, i₁)`. -/

theorem lhs_0 (i : S100000x256.Idx) (c : dot_S100000x256_S256x256_S100000x256_1_0_0_1_n_n.contr.Idx) :
    (dot_S100000x256_S256x256_S100000x256_1_0_0_1_n_n.lhsIdx i c 0).val = (i 0).val := by
  unfold DotDims.lhsIdx
  rw [dif_neg (show ¬(0 : Fin S100000x256.rank) ∈ dot_S100000x256_S256x256_S100000x256_1_0_0_1_n_n.lhsBatch by decide), dif_pos (show (0 : Fin S100000x256.rank) ∈ dot_S100000x256_S256x256_S100000x256_1_0_0_1_n_n.lhsNonContracting by decide)]
  rfl
theorem lhs_1 (i : S100000x256.Idx) (c : dot_S100000x256_S256x256_S100000x256_1_0_0_1_n_n.contr.Idx) :
    (dot_S100000x256_S256x256_S100000x256_1_0_0_1_n_n.lhsIdx i c 1).val = (c ⟨0, by decide⟩).val :=
  dot_S100000x256_S256x256_S100000x256_1_0_0_1_n_n.lhsIdx_val_of_single rfl i c
theorem rhs_0 (i : S100000x256.Idx) (c : dot_S100000x256_S256x256_S100000x256_1_0_0_1_n_n.contr.Idx) :
    (dot_S100000x256_S256x256_S100000x256_1_0_0_1_n_n.rhsIdx i c 0).val = (c ⟨0, by decide⟩).val :=
  dot_S100000x256_S256x256_S100000x256_1_0_0_1_n_n.rhsIdx_val_of_single rfl i c
theorem rhs_1 (i : S100000x256.Idx) (c : dot_S100000x256_S256x256_S100000x256_1_0_0_1_n_n.contr.Idx) :
    (dot_S100000x256_S256x256_S100000x256_1_0_0_1_n_n.rhsIdx i c 1).val = (i 1).val := by
  unfold DotDims.rhsIdx
  rw [dif_neg (show ¬(1 : Fin S256x256.rank) ∈ dot_S100000x256_S256x256_S100000x256_1_0_0_1_n_n.rhsBatch by decide), dif_pos (show (1 : Fin S256x256.rank) ∈ dot_S100000x256_S256x256_S100000x256_1_0_0_1_n_n.rhsNonContracting by decide)]
  rfl

/-- The host's product read at `(r, q)`: the sum over `k : Fin 256` of the left operand's row `r` against the right
    operand's column `q` (the sum over the one-axis contraction index, re-indexed by its coordinate). -/
theorem dot_apply (L : FVec Ideal S100000x256 .f32) (R : FVec Ideal S256x256 .f32) (r : Fin 100000) (q : Fin 256) :
    Host.dotGeneral dot_S100000x256_S256x256_S100000x256_1_0_0_1_n_n none L R (ix2 r q) = ∑ k : Fin 256, L (ix2 r k) * R (ix2 k q) := by
  simp only [Host.dotGeneral]
  rw [Ideal.dotGeneral_apply, ← Equiv.sum_comp (ValueIdx.contrEquiv1 dot_S100000x256_S256x256_S100000x256_1_0_0_1_n_n 256 rfl rfl).symm]
  refine Finset.sum_congr rfl fun k _ => ?_
  have hk := ValueIdx.contrEquiv1_symm_val dot_S100000x256_S256x256_S100000x256_1_0_0_1_n_n 256 rfl rfl k
  have el : dot_S100000x256_S256x256_S100000x256_1_0_0_1_n_n.lhsIdx (ix2 r q) ((ValueIdx.contrEquiv1 dot_S100000x256_S256x256_S100000x256_1_0_0_1_n_n 256 rfl rfl).symm k) = ix2 r k :=
    funext fun a => Fin.ext (by
      match a with
      | ⟨0, _⟩ => exact lhs_0 _ _
      | ⟨1, _⟩ => exact (lhs_1 _ _).trans hk)
  have er : dot_S100000x256_S256x256_S100000x256_1_0_0_1_n_n.rhsIdx (ix2 r q) ((ValueIdx.contrEquiv1 dot_S100000x256_S256x256_S100000x256_1_0_0_1_n_n 256 rfl rfl).symm k) = ix2 k q :=
    funext fun a => Fin.ext (by
      match a with
      | ⟨0, _⟩ => exact (rhs_0 _ _).trans hk
      | ⟨1, _⟩ => exact rhs_1 _ _)
  rw [el, er]

/-- A bias vector made a 1×256 row and repeated over the rows reads, at `(r, q)`, the vector at `q`. -/
theorem bias_apply (b : FVec Ideal S256 .f32) (r : Fin 100000) (q : Fin 256) :
    broadcastInDim S100000x256 ![0, 1] bcast_S1x256_S100000x256_0_1 (broadcastInDim S1x256 ![1] bcast_S256_S1x256_1 b) (ix2 r q)
      = b (ix1 q) := by
  refine (broadcastInDim_apply _ bcast_S1x256_S100000x256_0_1 _ (ix2 r q) (ix2 (0 : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])).trans ?_
  exact broadcastInDim_apply _ bcast_S256_S1x256_1 b (ix2 (0 : Fin 1) q) (ix1 q) (fun a => match a with
    | ⟨0, _⟩ => by show q.val = if (256 : Nat) = 1 then 0 else q.val; rw [if_neg (by decide)])

/-- The scalar zero repeated over the whole array reads `0` everywhere. -/
theorem zero_apply (r : Fin 100000) (q : Fin 256) :
    broadcastInDim S100000x256 ![] bcast_S_S100000x256 (constant (F := Ideal) S_ .f32 0x00000000#32) (ix2 r q) = 0 := by
  refine (broadcastInDim_apply _ bcast_S_S100000x256 _ (ix2 r q) ix0 (fun a => a.elim0)).trans ?_
  exact Ideal.ofBits_zero_f32

/-- Entry `(r, q)` of the layer without a final positive part: the update of row `r`. Each product reads only row `r`
    of its left operand, so the hidden activation at `(r, k)` is all the second product needs. -/
theorem plain_apply (H A : FVec Ideal S100000x256 .f32) (W1 : FVec Ideal S256x256 .f32) (b1 : FVec Ideal S256 .f32)
    (W2 : FVec Ideal S256x256 .f32) (b2 : FVec Ideal S256 .f32) (r : Fin 100000) (q : Fin 256) :
    plain H A W1 b1 W2 b2 (ix2 r q)
      = Cert.Perceptron.update (fun l => H (ix2 r l)) (fun l => A (ix2 r l)) W1 (fun k => b1 (ix1 k)) W2 (fun k => b2 (ix1 k)) q := by
  unfold plain
  rw [addf_apply, dot_apply, bias_apply]
  unfold Cert.Perceptron.update Cert.Perceptron.affine
  refine congrArg (· + b2 (ix1 q)) (Finset.sum_congr rfl fun k _ => ?_)
  refine congrArg (· * W2 (ix2 k q)) ?_
  rw [maximumf_apply, addf_apply, dot_apply, bias_apply, zero_apply]
  rfl

/-- Entry `(r, q)` of the layer with its final positive part. -/
theorem withRelu_apply (H A : FVec Ideal S100000x256 .f32) (W1 : FVec Ideal S256x256 .f32) (b1 : FVec Ideal S256 .f32)
    (W2 : FVec Ideal S256x256 .f32) (b2 : FVec Ideal S256 .f32) (r : Fin 100000) (q : Fin 256) :
    withRelu H A W1 b1 W2 b2 (ix2 r q)
      = max (Cert.Perceptron.update (fun l => H (ix2 r l)) (fun l => A (ix2 r l)) W1 (fun k => b1 (ix1 k)) W2 (fun k => b2 (ix1 k)) q) 0 := by
  unfold withRelu
  rw [maximumf_apply, plain_apply, zero_apply]

end Cert.ReferenceIdeal.Layer
end
-- ==== Proof.Join.lean ====
/-
  The kernel side's array of node updates is the reference's layer.

  Both are, at entry `(r, q)`, the perceptron update of row `r` of the features and row `r` of the neighbour sums at
  output feature `q`. The kernel side reads its biases as 1×256 rows, the reference as length-256 vectors; a vector
  recast as a row reads, at `(0, k)`, the vector at `k`, so with the reference's bias vectors recast as rows the two
  arrays agree entry by entry.
-/
import proofs.«171842_j83184926588949_1_alg».proof.Proof.Nodes
import proofs.«171842_j83184926588949_1_alg».proof.Proof.Payload
import proofs.«171842_j83184926588949_1_alg».proof.Proof.RefLayer

noncomputable section
open Idealize.ShloMosaic Idealize.ShloMosaic.ValueIdx

namespace Cert.Join

/-- A bias vector recast as a 1×256 row, read along the row, is the vector. -/
theorem row_fun (b : FVec Ideal Cert.ReferenceIdeal.S256 .f32) :
    (fun k : Fin 256 => shapeCast Cert.KernelIdeal.S1x256 b Cert.KernelIdeal.Gen.shapeCasts_S256_S1x256 (ix2 0 k))
      = fun k => b (ix1 k) :=
  funext fun k => Cert.KernelIdeal.Payload.row_apply b k

/-- Without the final positive part: entry `i = (r, q)` of either side is the update of row `r` at `q`. -/
theorem plain_eq (H A : FVec Ideal Cert.ReferenceIdeal.S100000x256 .f32) (W1 : FVec Ideal Cert.ReferenceIdeal.S256x256 .f32) (b1 : FVec Ideal Cert.ReferenceIdeal.S256 .f32) (W2 : FVec Ideal Cert.ReferenceIdeal.S256x256 .f32) (b2 : FVec Ideal Cert.ReferenceIdeal.S256 .f32) :
    Cert.KernelIdeal.Nodes.plain H A W1 (shapeCast Cert.KernelIdeal.S1x256 b1 Cert.KernelIdeal.Gen.shapeCasts_S256_S1x256) W2 (shapeCast Cert.KernelIdeal.S1x256 b2 Cert.KernelIdeal.Gen.shapeCasts_S256_S1x256)
      = Cert.ReferenceIdeal.Layer.plain H A W1 b1 W2 b2 := by
  funext i
  have e := Cert.ReferenceIdeal.Layer.plain_apply H A W1 b1 W2 b2 (Cert.KernelIdeal.Nodes.node i) (Cert.KernelIdeal.Nodes.feat i)
  have hi : ix2 (Cert.KernelIdeal.Nodes.node i) (Cert.KernelIdeal.Nodes.feat i) = i := (eq_ix2 i).symm
  rw [hi] at e
  rw [e]
  unfold Cert.KernelIdeal.Nodes.plain
  rw [row_fun b1, row_fun b2]

/-- With the final positive part. -/
theorem positive_eq (H A : FVec Ideal Cert.ReferenceIdeal.S100000x256 .f32) (W1 : FVec Ideal Cert.ReferenceIdeal.S256x256 .f32) (b1 : FVec Ideal Cert.ReferenceIdeal.S256 .f32) (W2 : FVec Ideal Cert.ReferenceIdeal.S256x256 .f32) (b2 : FVec Ideal Cert.ReferenceIdeal.S256 .f32) :
    Cert.KernelIdeal.Nodes.positive H A W1 (shapeCast Cert.KernelIdeal.S1x256 b1 Cert.KernelIdeal.Gen.shapeCasts_S256_S1x256) W2 (shapeCast Cert.KernelIdeal.S1x256 b2 Cert.KernelIdeal.Gen.shapeCasts_S256_S1x256)
      = Cert.ReferenceIdeal.Layer.withRelu H A W1 b1 W2 b2 := by
  funext i
  have e := Cert.ReferenceIdeal.Layer.withRelu_apply H A W1 b1 W2 b2 (Cert.KernelIdeal.Nodes.node i) (Cert.KernelIdeal.Nodes.feat i)
  have hi : ix2 (Cert.KernelIdeal.Nodes.node i) (Cert.KernelIdeal.Nodes.feat i) = i := (eq_ix2 i).symm
  rw [hi] at e
  rw [e]
  unfold Cert.KernelIdeal.Nodes.positive Cert.KernelIdeal.Nodes.plain
  rw [row_fun b1, row_fun b2]

end Cert.Join
end
-- ==== Proof.Network.lean ====
/-
  The whole network as one function of the seven arguments: three graph-convolution layers, each the perceptron of
  a node's features and its neighbours' summed features (the first two followed by a positive part), then the
  per-graph mean of the last layer's rows. Both programs are shown to return this array.
-/
import proofs.«171842_j83184926588949_1_alg».proof.Proof.Glue
import proofs.«171842_j83184926588949_1_alg».proof.Proof.RefLayer

noncomputable section

namespace Cert.ReferenceIdeal.Glue

open Idealize.ShloMosaic Cert.ReferenceIdeal Cert.ReferenceIdeal.Gen

/-- The node features after the first layer. -/
def layer₁ (x : Feats) (e : Edges) (W₁ : Stack) (B₁ : Biases) (W₂ : Stack) (B₂ : Biases) : Feats :=
  Layer.withRelu x (neighbours x e) (matrix₀ W₁) (vector₀ B₁) (matrix₀ W₂) (vector₀ B₂)
/-- The node features after the second layer. -/
def layer₂ (x : Feats) (e : Edges) (W₁ : Stack) (B₁ : Biases) (W₂ : Stack) (B₂ : Biases) : Feats :=
  Layer.withRelu (layer₁ x e W₁ B₁ W₂ B₂) (neighbours (layer₁ x e W₁ B₁ W₂ B₂) e) (matrix₁ W₁) (vector₁ B₁) (matrix₁ W₂) (vector₁ B₂)
/-- The node features after the third layer, which has no final positive part. -/
def layer₃ (x : Feats) (e : Edges) (W₁ : Stack) (B₁ : Biases) (W₂ : Stack) (B₂ : Biases) : Feats :=
  Layer.plain (layer₂ x e W₁ B₁ W₂ B₂) (neighbours (layer₂ x e W₁ B₁ W₂ B₂) e) (matrix₂ W₁) (vector₂ B₁) (matrix₂ W₂) (vector₂ B₂)
/-- The network's result: the per-graph means of the third layer's rows. -/
def network (x : Feats) (e : Edges) (g : Graphs) (W₁ : Stack) (B₁ : Biases) (W₂ : Stack) (B₂ : Biases) :
    (⟨S1024x256, .f32⟩ : BufTy).Contents (Elt Ideal) :=
  graphMeans (layer₃ x e W₁ B₁ W₂ B₂) g

end Cert.ReferenceIdeal.Glue

end
-- ==== Proof.KernelResult.lean ====
/-
  The kernel program's result, as the network of its seven arguments.

  Walking the chain of segments from the launch: the first kernel is entered with the node features, their
  neighbour sums and the first slices of the weights and biases, so it leaves the first layer's rows; the host
  stretch after it carries those rows through, forms their neighbour sums along the same edge rows and takes the
  second slices, so the second kernel leaves the second layer's rows; likewise the third; and the last stretch
  averages the third layer's rows per graph. At each kernel the array it leaves is the layer's array of node
  updates (the tiling argument), which is the reference's layer term once the bias rows are read as vectors.
-/
import proofs.«171842_j83184926588949_1_alg».proof.Proof.Layer0
import proofs.«171842_j83184926588949_1_alg».proof.Proof.Layer1
import proofs.«171842_j83184926588949_1_alg».proof.Proof.Layer2
import proofs.«171842_j83184926588949_1_alg».proof.Proof.Boundary1
import proofs.«171842_j83184926588949_1_alg».proof.Proof.Boundary3
import proofs.«171842_j83184926588949_1_alg».proof.Proof.Boundary5
import proofs.«171842_j83184926588949_1_alg».proof.Proof.Boundary7
import proofs.«171842_j83184926588949_1_alg».proof.Proof.Join
import proofs.«171842_j83184926588949_1_alg».proof.Proof.Network

set_option maxRecDepth 16384

noncomputable section

namespace Cert.KernelIdeal.Result

open Idealize.ShloMosaic Idealize.ShloMosaic.TcCoe Idealize.SL.Sem
open Cert.KernelIdeal Cert.KernelIdeal.Gen Cert.KernelIdeal.Boundary
open Cert.ReferenceIdeal.Glue

variable (m : (ℓ : Loc nD τ sig) → Buf (Elt Ideal) ℓ) (ρ : Dev nD → PrngReg)

/-- When the first kernel returns, its output buffer holds the first layer's rows. -/
theorem after_first (c : Dev nD) : W2 m ρ c (Proc.devRef .tc main_v24) = layer₁ (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W2_arr m ρ c 6).trans ?_
  rw [Cert.KernelIdeal.Layer0.array (V1 m ρ) c, entry_feats m ρ c, entry_sums m ρ c, entry_weights₁ m ρ c, entry_bias₁ m ρ c,
    entry_weights₂ m ρ c, entry_bias₂ m ρ c]
  exact Cert.Join.positive_eq _ _ _ _ _ _

/-- The edge rows and the arguments are still what the first stretch made of them. -/
theorem first_sources (c : Dev nD) : W2 m ρ c (Proc.devRef .tc main_v1) = firstRow (m ((c : Thread nD τ).loc main_arg1)) :=
  (W2_of_ne m ρ c main_v1 (by decide)).trans (sources m ρ c)
theorem first_targets (c : Dev nD) : W2 m ρ c (Proc.devRef .tc main_v3) = secondRow (m ((c : Thread nD τ).loc main_arg1)) :=
  (W2_of_ne m ρ c main_v3 (by decide)).trans (targets m ρ c)
theorem first_arg2 (c : Dev nD) : W2 m ρ c (Proc.devRef .tc main_arg2) = (m ((c : Thread nD τ).loc main_arg2)) :=
  (W2_of_ne m ρ c main_arg2 (by decide)).trans (arg2 m ρ c)
theorem first_arg3 (c : Dev nD) : W2 m ρ c (Proc.devRef .tc main_arg3) = (m ((c : Thread nD τ).loc main_arg3)) :=
  (W2_of_ne m ρ c main_arg3 (by decide)).trans (arg3 m ρ c)
theorem first_arg4 (c : Dev nD) : W2 m ρ c (Proc.devRef .tc main_arg4) = (m ((c : Thread nD τ).loc main_arg4)) :=
  (W2_of_ne m ρ c main_arg4 (by decide)).trans (arg4 m ρ c)
theorem first_arg5 (c : Dev nD) : W2 m ρ c (Proc.devRef .tc main_arg5) = (m ((c : Thread nD τ).loc main_arg5)) :=
  (W2_of_ne m ρ c main_arg5 (by decide)).trans (arg5 m ρ c)
theorem first_arg6 (c : Dev nD) : W2 m ρ c (Proc.devRef .tc main_arg6) = (m ((c : Thread nD τ).loc main_arg6)) :=
  (W2_of_ne m ρ c main_arg6 (by decide)).trans (arg6 m ρ c)

/-- When the second kernel returns, its output buffer holds the second layer's rows. -/
theorem after_second (c : Dev nD) : W4 m ρ c (Proc.devRef .tc main_v45) = layer₂ (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W4_arr m ρ c 6).trans ?_
  rw [Cert.KernelIdeal.Layer1.array (V3 m ρ) c,
    feats₁ m ρ _ c (after_first m ρ c),
    sums₁ m ρ _ _ c (after_first m ρ c) (first_sources m ρ c) (first_targets m ρ c),
    weights₁_₁ m ρ _ c (first_arg3 m ρ c), bias₁_₁ m ρ _ c (first_arg4 m ρ c),
    weights₂_₁ m ρ _ c (first_arg5 m ρ c), bias₂_₁ m ρ _ c (first_arg6 m ρ c)]
  exact Cert.Join.positive_eq _ _ _ _ _ _

theorem second_sources (c : Dev nD) : W4 m ρ c (Proc.devRef .tc main_v1) = firstRow (m ((c : Thread nD τ).loc main_arg1)) :=
  (W4_of_ne m ρ c main_v1 (by decide)).trans ((keep3_v1 m ρ c).trans (first_sources m ρ c))
theorem second_targets (c : Dev nD) : W4 m ρ c (Proc.devRef .tc main_v3) = secondRow (m ((c : Thread nD τ).loc main_arg1)) :=
  (W4_of_ne m ρ c main_v3 (by decide)).trans ((keep3_v3 m ρ c).trans (first_targets m ρ c))
theorem second_arg2 (c : Dev nD) : W4 m ρ c (Proc.devRef .tc main_arg2) = (m ((c : Thread nD τ).loc main_arg2)) :=
  (W4_of_ne m ρ c main_arg2 (by decide)).trans ((keep3_arg2 m ρ c).trans (first_arg2 m ρ c))
theorem second_arg3 (c : Dev nD) : W4 m ρ c (Proc.devRef .tc main_arg3) = (m ((c : Thread nD τ).loc main_arg3)) :=
  (W4_of_ne m ρ c main_arg3 (by decide)).trans ((keep3_arg3 m ρ c).trans (first_arg3 m ρ c))
theorem second_arg4 (c : Dev nD) : W4 m ρ c (Proc.devRef .tc main_arg4) = (m ((c : Thread nD τ).loc main_arg4)) :=
  (W4_of_ne m ρ c main_arg4 (by decide)).trans ((keep3_arg4 m ρ c).trans (first_arg4 m ρ c))
theorem second_arg5 (c : Dev nD) : W4 m ρ c (Proc.devRef .tc main_arg5) = (m ((c : Thread nD τ).loc main_arg5)) :=
  (W4_of_ne m ρ c main_arg5 (by decide)).trans ((keep3_arg5 m ρ c).trans (first_arg5 m ρ c))
theorem second_arg6 (c : Dev nD) : W4 m ρ c (Proc.devRef .tc main_arg6) = (m ((c : Thread nD τ).loc main_arg6)) :=
  (W4_of_ne m ρ c main_arg6 (by decide)).trans ((keep3_arg6 m ρ c).trans (first_arg6 m ρ c))

/-- When the third kernel returns, its output buffer holds the third layer's rows. -/
theorem after_third (c : Dev nD) : W6 m ρ c (Proc.devRef .tc main_v66) = layer₃ (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W6_arr m ρ c 6).trans ?_
  rw [Cert.KernelIdeal.Layer2.array (V5 m ρ) c,
    feats₂ m ρ _ c (after_second m ρ c),
    sums₂ m ρ _ _ c (after_second m ρ c) (second_sources m ρ c) (second_targets m ρ c),
    weights₁_₂ m ρ _ c (second_arg3 m ρ c), bias₁_₂ m ρ _ c (second_arg4 m ρ c),
    weights₂_₂ m ρ _ c (second_arg5 m ρ c), bias₂_₂ m ρ _ c (second_arg6 m ρ c)]
  exact Cert.Join.plain_eq _ _ _ _ _ _

theorem third_graphs (c : Dev nD) : W6 m ρ c (Proc.devRef .tc main_arg2) = (m ((c : Thread nD τ).loc main_arg2)) :=
  (W6_of_ne m ρ c main_arg2 (by decide)).trans ((keep5_arg2 m ρ c).trans (second_arg2 m ρ c))

/-- THE RESULT: the buffer @main returns holds the network of the seven arguments. -/
theorem result_eq (c : Dev nD) : W7 m ρ c (Proc.devRef .tc main_v78)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  result m ρ _ _ c (after_third m ρ c) (third_graphs m ρ c)

end Cert.KernelIdeal.Result

end
-- ==== Proof.RefResult.lean ====
/-
  The reference program's result, folded into the named layers.

  The reference's run states its result as one term of host operations on the seven arguments. That term is, read
  from the outside in, the per-graph mean of the third layer's rows, the third layer applied to the second layer's
  output and its neighbour sums, and so on down to the arguments: exactly what the named network unfolds to. Nothing
  is computed here; the two sides are the same operations in the same order.
-/
import proofs.«171842_j83184926588949_1_alg».proof.Proof.Gen.ReferenceIdeal.Run
import proofs.«171842_j83184926588949_1_alg».proof.Proof.Network

noncomputable section

namespace Cert.ReferenceIdeal.Result
open Cert.ReferenceIdeal Cert.ReferenceIdeal.Gen Idealize.ShloMosaic Idealize.ShloMosaic.TcCoe Idealize.SL.Sem

set_option maxRecDepth 8192 in
/-- The result the reference's run names is the network of its seven arguments. -/
theorem result_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v106 (F := Ideal) m c
      = Cert.ReferenceIdeal.Glue.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v106
  rfl

end Cert.ReferenceIdeal.Result
end
-- ==== Proof.lean ====
/-
  A three-layer graph-convolution network with per-graph mean pooling: a tiled kernel against the plain array
  program, equal on the extended reals.

  Each layer sends every node's feature row `h` and the sum `a` of its neighbours' rows to
  `(relu ((h + a) · W₁ + b₁)) · W₂ + b₂`, followed by a positive part in the first two layers; the neighbour sums
  (a gather along the edges' sources and a scatter-add at their targets) and the final per-graph averaging are the
  same array operations in both programs. The programs differ only in how a layer's perceptron is evaluated: the
  reference multiplies all 100000 rows at once, the kernel works through fifty blocks of 2000 rows, rounding to a
  shorter float format before each product and accumulating each product into a zero array. On the extended reals
  a change of float format is the identity and a product into zero is the plain finite sum, and a row of the
  perceptron's output depends on the same row of its inputs only; so each block the kernel writes is a block of
  rows of the reference's layer, the fifty blocks tile the rows, and the kernel's output array IS the reference's
  layer. By induction through the three layers both programs return the same network of the seven arguments.
  No law that could fail at an infinity is used (sums are only regrouped by name, never distributed over), so the
  finiteness of the inputs is not needed for the values.

  The three frame claims are the generated frame runs (the reference's is its generated run with the result
  dropped); the idealization rewrote nothing, so `preserves` is `True`.
-/
import proofs.«171842_j83184926588949_1_alg».proof.Defs
import proofs.«171842_j83184926588949_1_alg».proof.Proof.Gen.Kernel
import proofs.«171842_j83184926588949_1_alg».proof.Proof.Gen.Kernel.Skeleton
import proofs.«171842_j83184926588949_1_alg».proof.Proof.Gen.Kernel.Launch
import proofs.«171842_j83184926588949_1_alg».proof.Proof.Gen.Kernel.Points
import proofs.«171842_j83184926588949_1_alg».proof.Proof.Gen.Kernel.Frame
import proofs.«171842_j83184926588949_1_alg».proof.Proof.Gen.KernelIdeal
import proofs.«171842_j83184926588949_1_alg».proof.Proof.Gen.KernelIdeal.Skeleton
import proofs.«171842_j83184926588949_1_alg».proof.Proof.Gen.KernelIdeal.Launch
import proofs.«171842_j83184926588949_1_alg».proof.Proof.Gen.KernelIdeal.Points
import proofs.«171842_j83184926588949_1_alg».proof.Proof.Gen.KernelIdeal.Frame
import proofs.«171842_j83184926588949_1_alg».proof.Proof.Gen.ReferenceIdeal
import proofs.«171842_j83184926588949_1_alg».proof.Proof.Gen.Pre_finite_inputs
import proofs.«171842_j83184926588949_1_alg».proof.Proof.Gen.ReferenceIdeal.Run
import proofs.«171842_j83184926588949_1_alg».proof.Proof.Gen.ReferenceIdeal.Read
import proofs.«171842_j83184926588949_1_alg».proof.Proof.AtReturn
import proofs.«171842_j83184926588949_1_alg».proof.Proof.KernelResult
import proofs.«171842_j83184926588949_1_alg».proof.Proof.RefResult
import Idealize.ShloMosaic.Adequacy
import Idealize.ShloMosaic.Init

noncomputable section

namespace Cert.Proof

open Idealize.ShloMosaic Idealize.SL.Sem

/-- The kernel program as printed runs to completion without a fault and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result's value forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments both programs return the network of those arguments: the kernel
    program by the walk through its segments, the reference by folding its result term into the named layers. -/
theorem algebraic : Cert.algebraic_KernelIdeal_ReferenceIdeal := by
  intro m ρ m' ρ' _ hagree
  refine ⟨fun c => Cert.ReferenceIdeal.Glue.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.result_eq m ρ c), (h c).2⟩)
      (Cert.KernelIdeal.AtReturn.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.Result.result_eq m' c, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
